-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 32 := constantI S_ 32 31999#32
  let main_v6 : IVec S4096 32 := broadcastInDim S4096 ![] bcast_S_S4096 main_c_1
  let main_v7 : IVec S4096 1 := cmpi .sle main_arg1 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  main_v10
-- ==== Kernel.lean ====
abbrev S4096x32000 : Shape := ⟨2, ![4096, 32000]⟩
abbrev S4096 : Shape := ⟨1, ![4096]⟩
abbrev S4096x1 : Shape := ⟨2, ![4096, 1]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S256x6400 : Shape := ⟨2, ![256, 6400]⟩
abbrev S256x1 : Shape := ⟨2, ![256, 1]⟩
abbrev S256 : Shape := ⟨1, ![256]⟩

abbrev nBuf : Space → Nat
  | .hbm => 30
  | .vmem => 8
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1, .i32⟩
  | .hbm, ⟨3, _⟩ => ⟨S_, .i32⟩
  | .hbm, ⟨4, _⟩ => ⟨S4096x1, .i32⟩
  | .hbm, ⟨5, _⟩ => ⟨S4096x1, .i1⟩
  | .hbm, ⟨6, _⟩ => ⟨S_, .i32⟩
  | .hbm, ⟨7, _⟩ => ⟨S4096x1, .i32⟩
  | .hbm, ⟨8, _⟩ => ⟨S4096x1, .i32⟩
  | .hbm, ⟨9, _⟩ => ⟨S4096x1, .i32⟩
  | .hbm, ⟨10, _⟩ => ⟨S4096x1x1, .i32⟩
  | .hbm, ⟨11, _⟩ => ⟨S1, .i32⟩
  | .hbm, ⟨12, _⟩ => ⟨S_, .i32⟩
  | .hbm, ⟨13, _⟩ => ⟨S4096x1x1, .i32⟩
  | .hbm, ⟨14, _⟩ => ⟨S4096x1x1, .i1⟩
  | .hbm, ⟨15, _⟩ => ⟨S1x1x1, .i32⟩
  | .hbm, ⟨16, _⟩ => ⟨S4096x1x1, .i32⟩
  | .hbm, ⟨17, _⟩ => ⟨S4096x1x1, .i1⟩
  | .hbm, ⟨18, _⟩ => ⟨S4096x1x1, .i1⟩
  | .hbm, ⟨19, _⟩ => ⟨S_, .i1⟩
  | .hbm, ⟨20, _⟩ => ⟨S4096x1, .i1⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S256x6400, .f32⟩
  | .local _ .vmem, ⟨1, _⟩ => ⟨S256x6400, .f32⟩
  | .local _ .vmem, ⟨2, _⟩ => ⟨S256x1, .f32⟩
  | .local _ .vmem, ⟨3, _⟩ => ⟨S256x1, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_cst : Ref sig .tc := ⟨.hbm, 26, rfl⟩
abbrev main_v3 : Ref sig .tc := ⟨.hbm, 27, rfl⟩
abbrev main_cst_0 : Ref sig .tc := ⟨.hbm, 28, rfl⟩
abbrev main_v4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v25 : BitVec 1 := Scalar.cmpi .eq arg1 c4_i32
  let v26 : BitVec 32 := Scalar.extui v25
  let c0_i32_13 : BitVec 32 := 0#32
  let v27 : BitVec 1 := Scalar.cmpi .ne v26 c0_i32_13
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4096_S4096x1 : S4096.ShapeCasts S4096x1
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x6400_S256x6400_0_0 : ∀ a, (![0, 0] : Fin 2 → Nat) a + S256x6400.size a ≤ S256x6400.size a
  h_S256x6400 : 0 < S256x6400.numel
  reduces_S256x6400_S256 : S256x6400.Reduces [1] S256
  shapeCasts_S256_S256x1 : S256.ShapeCasts S256x1
  broadcasts_S256x1_S256x6400 : S256x1.Broadcasts S256x6400
  reducesTo_S4096x1_S_d0_1 : S4096x1.ReducesTo [0, 1] S_
  gather_S4096x32000_S4096x1x1_S4096x1_n_1_0_0_1_2_11_wf : GatherDims.WF S4096x32000 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x6400.size a ≤ S4096x32000.size a
  hwx0_0 : ∀ i : grid0.Coords, EltTy.bits .f32 = 32 ∨ (Rect.block (s := S4096x32000) S256x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S4096x1.size a
  hwx0_1 : ∀ i : grid0.Coords, EltTy.bits .f32 = 32 ∨ (Rect.block (s := S4096x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

abbrev win0_0 : Pipeline.Window sig grid0 :=
  Pipeline.Window.ofSpec (Memref.whole main_arg0) S256x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S4096x32000, .f32⟩
  | .hbm, ⟨6, _⟩ => ⟨S4096x32000, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096x1, .f32⟩
  | .hbm, ⟨13, _⟩ => ⟨S4096x32000, .f32⟩
  | .hbm, ⟨14, _⟩ => ⟨S4096x32000, .f32⟩
  | .hbm, ⟨15, _⟩ => ⟨S4096x32000, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x32000, .f32⟩
  | .hbm, ⟨20, _⟩ => ⟨S4096x32000, .f32⟩
  | .hbm, ⟨21, _⟩ => ⟨S4096x1, .i32⟩
  | .hbm, ⟨22, _⟩ => ⟨S_, .i32⟩
  | .hbm, ⟨23, _⟩ => ⟨S4096x1, .i32⟩
  | .hbm, ⟨24, _⟩ => ⟨S4096x1, .i1⟩
  | .hbm, ⟨25, _⟩ => ⟨S_, .i32⟩
  | .hbm, ⟨26, _⟩ => ⟨S4096x1, .i32⟩
  | .hbm, ⟨27, _⟩ => ⟨S4096x1, .i32⟩
  | .hbm, ⟨28, _⟩ => ⟨S4096x1, .i32⟩
  | .hbm, ⟨29, _⟩ => ⟨S4096x1x1, .i32⟩
  | .hbm, ⟨30, _⟩ => ⟨S1, .i32⟩
  | .hbm, ⟨31, _⟩ => ⟨S_, .i32⟩
  | .hbm, ⟨32, _⟩ => ⟨S4096x1x1, .i32⟩
  | .hbm, ⟨33, _⟩ => ⟨S4096x1x1, .i1⟩
  | .hbm, ⟨34, _⟩ => ⟨S1x1x1, .i32⟩
  | .hbm, ⟨35, _⟩ => ⟨S4096x1x1, .i32⟩
  | .hbm, ⟨36, _⟩ => ⟨S4096x1x1, .i1⟩
  | .hbm, ⟨37, _⟩ => ⟨S4096x1x1, .i1⟩
  | .hbm, ⟨38, _⟩ => ⟨S_, .i1⟩
  | .hbm, ⟨39, _⟩ => ⟨S4096x1, .i1⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096, .f32⟩
  | .hbm, ⟨49, _⟩ => ⟨S4096, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_4 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096 : S_.BroadcastsInDim S4096 (![] : Fin 0 → Fin S4096.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.LibRealEntries.lean ====
/-
  Extended reals that are real numbers, and the one law that joins the two programs' batch normalisations.

  An extended real is called real when it is the image of a real number. Sums, differences, products, maxima and
  quotients by a nonzero real of real entries are real, and so is the reciprocal square root of a positive real.

  The law: for n real numbers a_i and N = n (as a real, nonzero),
      (sum of a_i^2) / N - (sum a_i / N)^2  =  (sum of (a_i - sum a / N)^2) / N,
  the mean of the squares minus the square of the mean is the mean of the squared deviations. It holds for real
  entries only (an infinite entry makes the two sides different infinities), which is why finiteness is carried
  through every layer. The right-hand side is a nonnegative real, so adding a positive epsilon and taking the
  reciprocal square root gives a real number.
-/
import Idealize.ShloMosaic.PureOps.Ideal

noncomputable section

open scoped BigOperators

namespace Cert.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

theorem IsReal.div_real {x : EReal} (hx : IsReal x) {y : ℝ} (hy : y ≠ 0) : IsReal (Ideal.div x (y : EReal)) := by
  rw [Ideal.div_coe hy]; exact hx.mul ⟨_, rfl⟩

/-- The reciprocal square root of a positive real is a real. -/
theorem isReal_rsqrt_pos {r : ℝ} (h : 0 < r) : IsReal (Ideal.rsqrt (r : EReal)) := by
  rw [Ideal.rsqrt_coe, if_neg (not_lt.mpr h.le), if_neg h.ne']
  exact ⟨_, rfl⟩

/-- The mean of the squares minus the square of the mean is the mean of the squared deviations, for real entries. -/
theorem var_eq {n : ℕ} (a : Fin n → EReal) (ha : ∀ i, IsReal (a i)) (N : ℝ) (hN : N ≠ 0) (hn : (n : ℝ) = N) :
    Ideal.div (∑ i, a i * a i) (N : EReal) - Ideal.div (∑ i, a i) (N : EReal) * Ideal.div (∑ i, a i) (N : EReal)
      = Ideal.div (∑ i, (a i - Ideal.div (∑ j, a j) (N : EReal)) * (a i - Ideal.div (∑ j, a j) (N : EReal))) (N : EReal) := by
  choose f hf using ha
  have hfun : a = fun i => (f i : EReal) := funext hf
  subst hfun
  simp only [Ideal.div_coe hN, ← EReal.coe_mul, ← coe_sum, ← EReal.coe_sub]
  refine congrArg _ ?_
  have h1 : ∑ i, (f i - (∑ j, f j) * (1 / N)) * (f i - (∑ j, f j) * (1 / N))
      = ∑ i, f i * f i - 2 * ((∑ j, f j) * (1 / N)) * ∑ i, f i + (n : ℝ) * (((∑ j, f j) * (1 / N)) * ((∑ j, f j) * (1 / N))) := by
    have : ∀ i, (f i - (∑ j, f j) * (1 / N)) * (f i - (∑ j, f j) * (1 / N))
        = f i * f i - 2 * ((∑ j, f j) * (1 / N)) * f i + ((∑ j, f j) * (1 / N)) * ((∑ j, f j) * (1 / N)) := fun i => by ring
    simp only [this, Finset.sum_add_distrib, Finset.sum_sub_distrib, ← Finset.mul_sum, Finset.sum_const, Finset.card_univ,
      Fintype.card_fin, nsmul_eq_mul]
    ring
  rw [h1, hn]
  field_simp
  ring

/-- The mean of the squared deviations of real entries, plus a positive real, has a real reciprocal square root. -/
theorem isReal_rsqrt_var {n : ℕ} (a : Fin n → EReal) (ha : ∀ i, IsReal (a i)) (μ : EReal) (hμ : IsReal μ) (N : ℝ) (hN : 0 < N)
    (e : ℝ) (he : 0 < e) : IsReal (Ideal.rsqrt (Ideal.div (∑ i, (a i - μ) * (a i - μ)) (N : EReal) + (e : EReal))) := by
  choose f hf using ha
  obtain ⟨u, rfl⟩ := hμ
  have hfun : a = fun i => (f i : EReal) := funext hf
  subst hfun
  simp only [Ideal.div_coe hN.ne', ← EReal.coe_mul, ← coe_sum, ← EReal.coe_sub, ← EReal.coe_add]
  refine isReal_rsqrt_pos ?_
  have : 0 ≤ (∑ i, (f i - u) * (f i - u)) * (1 / N) :=
    mul_nonneg (Finset.sum_nonneg fun i _ => mul_self_nonneg _) (by positivity)
  linarith

end Cert.Algebra

end
-- ==== Proof.PreFacts.lean ====
/-
  What the precondition says, entry by entry: the conjunction "every logit is finite and every label is within
  0 … 31999", stated by the program as two all-reductions joined by an and, holds exactly when every logit is a real
  number and every label word compares ≥ 0 and ≤ 31999 as a signed integer.
-/
import proofs.«125217_j81741817577604_2_alg».proof.Pre_finite_inputs
import proofs.«125217_j81741817577604_2_alg».proof.Proof.LibRealEntries
import Idealize.ShloMosaic.Lib.ReduceAll
import Idealize.ShloMosaic.Lib.ValueIdx
import Idealize.ShloMosaic.Lib.Pipeline.Value
import Idealize.ShloMosaic.PureOps.Ideal

noncomputable section

namespace Cert.PreFacts

open Idealize.ShloMosaic Idealize.ShloMosaic.ValueIdx Cert.Algebra

/-- The scalar shape has one index. -/
instance : Subsingleton Cert.Pre_finite_inputs.S_.Idx := ⟨fun _ _ => funext fun d => d.elim0⟩

/-- An extended real whose absolute value max x (−x) is strictly below +∞ is a real number: −∞ has absolute value +∞,
    and so has +∞. -/
theorem isReal_of_abs_lt_top (x : EReal) (h : max x (-x) < ⊤) : IsReal x := by
  induction x using EReal.rec with
  | bot => simp at h
  | coe r => exact ⟨r, rfl⟩
  | top => simp at h

/-- The comparison "|x| < the word 0x7F800000 read as a float" being the bit 1 says x is a real number: that word is +∞. -/
theorem isReal_of_cmp (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  unfold Ideal.cmp at h
  refine isReal_of_abs_lt_top x ?_
  by_contra hn
  simp [hn] at h

/-- From the precondition: every logit is a real number, and every label is within 0 … 31999. -/
theorem of_pre [Cert.Pre_finite_inputs.Facts] (X : FVec Ideal Cert.Pre_finite_inputs.S4096x32000 .f32)
    (lbl : IVec Cert.Pre_finite_inputs.S4096 32)
    (h : Cert.Pre_finite_inputs.fn (F := Ideal) X lbl = fun _ => 1#1) :
    (∀ i, IsReal (X i : EReal))
      ∧ (∀ r : Fin 4096, IntOp.cmpi .sge (lbl (ix1 r)) 0#32 = 1#1 ∧ IntOp.cmpi .sle (lbl (ix1 r)) 31999#32 = 1#1) := by
  -- the function's one entry is the and of the two all-reductions
  have h0 := congrFun h ix0
  dsimp only [Cert.Pre_finite_inputs.fn] at h0
  obtain ⟨h1, h2⟩ := IntOp.andi_eq_one.1 h0
  refine ⟨fun i => ?_, fun r => ?_⟩
  · -- every entry of "|X| < +∞" is the bit 1
    have hx := Host.reduce_andi_all _ _ _ _ _ h1 i
    exact isReal_of_cmp (X i) hx
  · -- every entry of "lbl ≥ 0 and lbl ≤ 31999" is the bit 1; a broadcast scalar reads the scalar
    have hl := Host.reduce_andi_all _ _ _ _ _ h2 (ix1 r)
    obtain ⟨ha, hb⟩ := IntOp.andi_eq_one.1 hl
    exact ⟨ha, hb⟩

end Cert.PreFacts

end
-- ==== Proof.KernelPieces.lean ====
import proofs.«125217_j81741817577604_2_alg».proof.Defs
import proofs.«125217_j81741817577604_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

/-! What each control case of the body leaves behind, as a pure function of what it found: the running-maximum buffer,
    the running-sum buffer and (in the last case) the output block are each the payload of the covering store, whose
    loads read the whole buffers — the values the point before left, or, at the first tile, the start values the case
    itself stored just before. -/

variable {F : FTy → Type} [FloatOps F]

theorem hz : (![0, 0] : Fin 2 → Nat) = fun _ => 0 := funext fun a => by fin_cases a <;> rfl

theorem maxA (c : Dev nD) (i : grid0.Coords) (a2 : Memref sig .tc .vmem S256x6400 .f32) (h2 : a2.IsWhole) (a3 : Memref sig .tc .vmem S256x1 .f32) (h3 : a3.IsWhole) (a4 : Memref sig .tc .vmem S256x1 .f32) (h4 : a4.IsWhole) (a5 : Memref sig .tc .vmem S256x1 .f32) (h5 : a5.IsWhole) (a6 : Memref sig .tc .vmem S256x1 .f32) (h6 : a6.IsWhole) (hc0 : cond0_0 i) (hc1 : ¬cond0_1 i)
    (x0 : Vec F S256x6400 .f32) (x1 : Vec F S256x1 .f32) :
    sout0_A_0 c i a2 h2 a3 h3 a4 h4 a5 h5 a6 h6 hc0 hc1 x0 x1 = k0_pay5 x0 (k0_pay1 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S256x1) hz]
  simp only [View.readCov_unit_zero (S := S256x1) _ hz]
  simp only [View.readAt_eq_ld, h2.read_unread, h3.read_unread, h5.read_unread, h6.read_unread, View.ld_unit_zero (S := S256x6400) hz, View.ld_unit_zero (S := S256x1) hz]

theorem sumA (c : Dev nD) (i : grid0.Coords) (a2 : Memref sig .tc .vmem S256x6400 .f32) (h2 : a2.IsWhole) (a3 : Memref sig .tc .vmem S256x1 .f32) (h3 : a3.IsWhole) (a4 : Memref sig .tc .vmem S256x1 .f32) (h4 : a4.IsWhole) (a5 : Memref sig .tc .vmem S256x1 .f32) (h5 : a5.IsWhole) (a6 : Memref sig .tc .vmem S256x1 .f32) (h6 : a6.IsWhole) (hc0 : cond0_0 i) (hc1 : ¬cond0_1 i)
    (x0 : Vec F S256x6400 .f32) (x1 : Vec F S256x1 .f32) :
    sout0_A_1 c i a2 h2 a3 h3 a4 h4 a5 h5 a6 h6 hc0 hc1 x0 x1 = k0_pay4 x0 (k0_pay1 (F := F)) (k0_pay1 (F := F)) (k0_pay2 (F := F)) := by
  unfold sout0_A_1
  rw [View.read_writes_eq_canon _ _ _ (scover0_A_1 c i a2 h2 a3 h3 a4 h4 a5 h5 a6 h6 hc0 hc1 x0 x1)]
  unfold kernelRun0_A
  dsimp only
  sl_unfold_words
  rw [View.canon_cons_unit_zero (S := S256x1) hz]
  simp only [View.readCov_unit_zero (S := S256x1) _ hz]
  simp only [View.readAt_eq_ld, h2.read_unread, h3.read_unread, h5.read_unread, h6.read_unread, View.ld_unit_zero (S := S256x6400) hz, View.ld_unit_zero (S := S256x1) hz]

theorem maxB (c : Dev nD) (i : grid0.Coords) (a2 : Memref sig .tc .vmem S256x6400 .f32) (h2 : a2.IsWhole) (a3 : Memref sig .tc .vmem S256x1 .f32) (h3 : a3.IsWhole) (a4 : Memref sig .tc .vmem S256x1 .f32) (h4 : a4.IsWhole) (a5 : Memref sig .tc .vmem S256x1 .f32) (h5 : a5.IsWhole) (a6 : Memref sig .tc .vmem S256x1 .f32) (h6 : a6.IsWhole) (hc0 : ¬cond0_0 i) (hc1 : ¬cond0_1 i)
    (x0 : Vec F S256x6400 .f32) (x1 xs0 xs1 : Vec F S256x1 .f32) :
    sout0_B_0 c i a2 h2 a3 h3 a4 h4 a5 h5 a6 h6 hc0 hc1 x0 x1 xs0 xs1 = k0_pay5 x0 xs0 := by
  unfold sout0_B_0
  rw [View.read_writes_eq_canon _ _ _ (scover0_B_0 c i a2 h2 a3 h3 a4 h4 a5 h5 a6 h6 hc0 hc1 x0 x1 xs0 xs1)]
  unfold kernelRun0_B
  dsimp only
  sl_unfold_words
  rw [View.canon_unit_zero hz]
  simp only [View.readAt_eq_ld, h2.read_unread, h3.read_unread, h5.read_unread, h6.read_unread, View.ld_unit_zero (S := S256x6400) hz, View.ld_unit_zero (S := S256x1) hz]

theorem sumB (c : Dev nD) (i : grid0.Coords) (a2 : Memref sig .tc .vmem S256x6400 .f32) (h2 : a2.IsWhole) (a3 : Memref sig .tc .vmem S256x1 .f32) (h3 : a3.IsWhole) (a4 : Memref sig .tc .vmem S256x1 .f32) (h4 : a4.IsWhole) (a5 : Memref sig .tc .vmem S256x1 .f32) (h5 : a5.IsWhole) (a6 : Memref sig .tc .vmem S256x1 .f32) (h6 : a6.IsWhole) (hc0 : ¬cond0_0 i) (hc1 : ¬cond0_1 i)
    (x0 : Vec F S256x6400 .f32) (x1 xs0 xs1 : Vec F S256x1 .f32) :
    sout0_B_1 c i a2 h2 a3 h3 a4 h4 a5 h5 a6 h6 hc0 hc1 x0 x1 xs0 xs1 = k0_pay4 x0 xs0 xs0 xs1 := by
  unfold sout0_B_1
  rw [View.read_writes_eq_canon _ _ _ (scover0_B_1 c i a2 h2 a3 h3 a4 h4 a5 h5 a6 h6 hc0 hc1 x0 x1 xs0 xs1)]
  unfold kernelRun0_B
  dsimp only
  sl_unfold_words
  rw [View.canon_unit_zero hz]
  simp only [View.readAt_eq_ld, h2.read_unread, h3.read_unread, h5.read_unread, h6.read_unread, View.ld_unit_zero (S := S256x6400) hz, View.ld_unit_zero (S := S256x1) hz]

theorem maxC (c : Dev nD) (i : grid0.Coords) (a2 : Memref sig .tc .vmem S256x6400 .f32) (h2 : a2.IsWhole) (a3 : Memref sig .tc .vmem S256x1 .f32) (h3 : a3.IsWhole) (a4 : Memref sig .tc .vmem S256x1 .f32) (h4 : a4.IsWhole) (a5 : Memref sig .tc .vmem S256x1 .f32) (h5 : a5.IsWhole) (a6 : Memref sig .tc .vmem S256x1 .f32) (h6 : a6.IsWhole) (hc0 : ¬cond0_0 i) (hc1 : cond0_1 i)
    (x0 : Vec F S256x6400 .f32) (x1 xs0 xs1 : Vec F S256x1 .f32) :
    sout0_C_0 c i a2 h2 a3 h3 a4 h4 a5 h5 a6 h6 hc0 hc1 x0 x1 xs0 xs1 = k0_pay5 x0 xs0 := by
  unfold sout0_C_0
  rw [View.read_writes_eq_canon _ _ _ (scover0_C_0 c i a2 h2 a3 h3 a4 h4 a5 h5 a6 h6 hc0 hc1 x0 x1 xs0 xs1)]
  unfold kernelRun0_C
  dsimp only
  sl_unfold_words
  rw [View.canon_unit_zero hz]
  simp only [View.readAt_eq_ld, h2.read_unread, h3.read_unread, h5.read_unread, h6.read_unread, View.ld_unit_zero (S := S256x6400) hz, View.ld_unit_zero (S := S256x1) hz]

theorem sumC (c : Dev nD) (i : grid0.Coords) (a2 : Memref sig .tc .vmem S256x6400 .f32) (h2 : a2.IsWhole) (a3 : Memref sig .tc .vmem S256x1 .f32) (h3 : a3.IsWhole) (a4 : Memref sig .tc .vmem S256x1 .f32) (h4 : a4.IsWhole) (a5 : Memref sig .tc .vmem S256x1 .f32) (h5 : a5.IsWhole) (a6 : Memref sig .tc .vmem S256x1 .f32) (h6 : a6.IsWhole) (hc0 : ¬cond0_0 i) (hc1 : cond0_1 i)
    (x0 : Vec F S256x6400 .f32) (x1 xs0 xs1 : Vec F S256x1 .f32) :
    sout0_C_1 c i a2 h2 a3 h3 a4 h4 a5 h5 a6 h6 hc0 hc1 x0 x1 xs0 xs1 = k0_pay4 x0 xs0 xs0 xs1 := by
  unfold sout0_C_1
  rw [View.read_writes_eq_canon _ _ _ (scover0_C_1 c i a2 h2 a3 h3 a4 h4 a5 h5 a6 h6 hc0 hc1 x0 x1 xs0 xs1)]
  unfold kernelRun0_C
  dsimp only
  sl_unfold_words
  rw [View.canon_unit_zero hz]
  simp only [View.readAt_eq_ld, h2.read_unread, h3.read_unread, h5.read_unread, h6.read_unread, View.ld_unit_zero (S := S256x6400) hz, View.ld_unit_zero (S := S256x1) hz]

theorem outC (c : Dev nD) (i : grid0.Coords) (a2 : Memref sig .tc .vmem S256x6400 .f32) (h2 : a2.IsWhole) (a3 : Memref sig .tc .vmem S256x1 .f32) (h3 : a3.IsWhole) (a4 : Memref sig .tc .vmem S256x1 .f32) (h4 : a4.IsWhole) (a5 : Memref sig .tc .vmem S256x1 .f32) (h5 : a5.IsWhole) (a6 : Memref sig .tc .vmem S256x1 .f32) (h6 : a6.IsWhole) (hc0 : ¬cond0_0 i) (hc1 : cond0_1 i)
    (x0 : Vec F S256x6400 .f32) (x1 xs0 xs1 : Vec F S256x1 .f32) :
    out0_C_2 c i a2 h2 a3 h3 a4 h4 a5 h5 a6 h6 hc0 hc1 x0 x1 xs0 xs1 = k0_pay6 x1 (k0_pay5 x0 xs0) (k0_pay4 x0 xs0 xs0 xs1) := by
  unfold out0_C_2
  rw [View.read_writes_eq_canon _ _ _ (cover0_C_2 c i a2 h2 a3 h3 a4 h4 a5 h5 a6 h6 hc0 hc1 x0 x1 xs0 xs1)]
  unfold kernelRun0_C
  dsimp only
  sl_unfold_words
  rw [View.canon_unit_zero hz]
  simp only [View.readCov_unit_zero (S := S256x1) _ hz]
  simp only [View.readAt_eq_ld, h2.read_unread, h3.read_unread, h5.read_unread, h6.read_unread, View.ld_unit_zero (S := S256x6400) hz, View.ld_unit_zero (S := S256x1) hz]

end Cert.KernelIdeal.Pieces

end
-- ==== Proof.LibRowReduce.lean ====
/-
  Reductions of an n x k array along its rows, read at a row given by its coordinate. The reduced index (r) with the
  inner coordinate j put back is the array index (r, j); so a lane sum at r is the finite sum over j of the entries
  (r, j), a lane maximum is the fold of max over them from the accumulator's value, and the host's sum and maximum
  over the same axis are the same sum (after the initial value) and the same fold (from the initial value).
-/
import Idealize.ShloMosaic.PureOps.Ideal.Laws
import Idealize.ShloMosaic.PureOps.Reduce
import Idealize.ShloMosaic.Lib.ValueIdx

noncomputable section

open scoped BigOperators

namespace Idealize.ShloMosaic.ValueIdx

open Idealize.ShloMosaic

/-- Row r's reduced index with the inner coordinate j inserted is (r, j). -/
theorem lift_row {n k : ℕ} (h : (⟨2, ![n, k]⟩ : Shape).Reduces [1] (⟨1, ![n]⟩ : Shape)) (r : Fin n)
    (j : Fin ((⟨2, ![n, k]⟩ : Shape).size 1)) : h.lift (ix1 r) j = ix2 r (⟨j.val, j.isLt⟩ : Fin k) := by
  funext c; apply Fin.ext
  fin_cases c <;> rfl

/-- A lane sum over the second axis, at row r: the sum of the row's entries. -/
theorem multiReduction_add_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.add.neutral φ hφ) (r : Fin n) :
    multiReduction .add [1] (⟨1, ![n]⟩ : Shape) src acc h hφ hacc (ix1 r) = ∑ j : Fin k, (src (ix2 r j) : EReal) :=
  (Ideal.multiReduction_add_single src acc h hφ hacc (ix1 r)).trans
    (Finset.sum_congr rfl fun j _ => congrArg src (lift_row h r j))

/-- A lane maximum over the second axis, at row r: the fold of max over the row's entries from the accumulator's value. -/
theorem multiReduction_max_row {n k : ℕ} {φ : FTy} (src : FVec Ideal (⟨2, ![n, k]⟩ : Shape) φ) (acc : BitVec φ.bits)
    (h : (⟨2, ![n, k]⟩ : Shape).Reduces [1] (⟨1, ![n]⟩ : Shape)) (hφ : FKind.Formats φ) (hacc : acc = FKind.maximumf.neutral φ hφ) (r : Fin n) :
    multiReduction .maximumf [1] (⟨1, ![n]⟩ : Shape) src acc h hφ hacc (ix1 r)
      = (Finset.univ : Finset (Fin k)).fold max (Ideal.ofBits φ acc) (fun j => (src (ix2 r j) : EReal)) :=
  (Ideal.multiReduction_maximumf_single src acc h hφ hacc (ix1 r)).trans
    (congrArg (fun f => Finset.fold max (Ideal.ofBits φ acc) f (Finset.univ : Finset (Fin k)))
      (funext fun j => congrArg src (lift_row h r j)))

/-- The host's sum over the second axis, at row r: the initial value plus the sum of the row's entries. -/
theorem hostReduceAdd_row {n k : ℕ} (h' : (⟨2, ![n, k]⟩ : Shape).ReducesTo [1] (⟨1, ![n]⟩ : Shape))
    (h : (⟨2, ![n, k]⟩ : Shape).Reduces [1] (⟨1, ![n]⟩ : Shape)) (x : (⟨2, ![n, k]⟩ : Shape).Idx → EReal) (init : EReal) (r : Fin n) :
    Ideal.hostReduceAdd h' x init (ix1 r) = init + ∑ j : Fin k, x (ix2 r j) :=
  (Ideal.hostReduceAdd_single h' h x init (ix1 r)).trans
    (congrArg (init + ·) (Finset.sum_congr rfl fun j _ => congrArg x (lift_row h r j)))

/-- The host's maximum over the second axis, at row r: the fold of max over the row's entries from the initial value. -/
theorem hostReduce_max_row {n k : ℕ} {φ : FTy} {u : Shape} (h' : (⟨2, ![n, k]⟩ : Shape).ReducesTo [1] (⟨1, ![n]⟩ : Shape))
    (h : (⟨2, ![n, k]⟩ : Shape).Reduces [1] (⟨1, ![n]⟩ : Shape)) (x : FVec Ideal (⟨2, ![n, k]⟩ : Shape) φ) (init : u.Idx → Ideal φ)
    (hu : 0 < u.numel) (r : Fin n) :
    Host.reduce FloatOps.maximumf x init h' hu (ix1 r)
      = (Finset.univ : Finset (Fin k)).fold max (init (Shape.Idx.first hu) : EReal) (fun j => (x (ix2 r j) : EReal)) :=
  (Host.reduce_eq_fold_single FloatOps.maximumf x init h' h hu (ix1 r)).trans
    (congrArg (fun f => Finset.fold max (init (Shape.Idx.first hu) : EReal) f (Finset.univ : Finset (Fin k)))
      (funext fun j => congrArg x (lift_row h r j)))

/-- Folding max from a value b over any entries gives something at least b: taking the maximum with b again changes nothing. -/
theorem max_fold_max_self {ι : Type} (s : Finset ι) (b : EReal) (f : ι → EReal) : max b (s.fold max b f) = s.fold max b f :=
  max_eq_right (Finset.le_fold_max b |>.mpr (Or.inl le_rfl))

end Idealize.ShloMosaic.ValueIdx

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibSoftmaxRow.lean ====
/-
  One row of the distributional head, on the extended reals.

  For a row of logits l_0 … l_{n-1} and bin values β_0 … β_{n-1} put
      m = max_k l_k,   e_k = exp (l_k − m),   s = Σ_k e_k.
  One program forms the reciprocal r = 1 / s once and writes e_k · r and (Σ_k e_k · β_k) · r; the other writes the
  quotients e_k / s and Σ_k (e_k / s) · β_k. When every l_k and β_k is a real number, m is real (n ≥ 1), every e_k is
  a positive real, s is a positive real, so dividing by s is multiplying by the real 1 / s, and a real factor moves
  across a finite sum of reals: the two programs agree. With an infinite entry they need not (a factor does not
  distribute over a sum that meets an infinity), which is why the entries are asked to be real.
-/
import proofs.«125217_j81741817577604_2_alg».proof.Proof.LibRealEntries
import Idealize.ShloMosaic.PureOps.Ideal.Laws

noncomputable section

open scoped BigOperators

namespace Cert.Softmax

open Idealize.ShloMosaic Cert.Algebra

/-! ## Three literals -/

/-- The f32 pattern of −∞ is the bottom of the extended reals. -/
theorem negInf_f32 : Ideal.ofBits .f32 0xFF800000#32 = ⊥ := by simp [Ideal.ofBits, Ideal.ieee]

/-- The f32 pattern of 1.0 is 1. -/
theorem one_f32 : Ideal.ofBits .f32 0x3F800000#32 = 1 := IdealRules.sign_bit.ideal_onePat .f32

/-! ## The row -/

variable {n : ℕ}

/-- The largest logit of the row: the fold of max from −∞. -/
def rowMax (l : Fin n → EReal) : EReal := (Finset.univ : Finset (Fin n)).fold max ⊥ l

/-- The shifted exponentials. -/
def ex (l : Fin n → EReal) (k : Fin n) : EReal := Ideal.exp (l k - rowMax l)

/-- Their total. -/
def tot (l : Fin n → EReal) : EReal := ∑ k, ex l k

/-- Folding max once more with −∞ changes nothing. -/
theorem max_bot_rowMax (l : Fin n → EReal) : max ⊥ (rowMax l) = rowMax l := max_eq_right bot_le

/-- The largest of n ≥ 1 real logits is real. -/
theorem isReal_rowMax [NeZero n] (l : Fin n → EReal) (hl : ∀ k, IsReal (l k)) : IsReal (rowMax l) := by
  have hb : rowMax l ≠ ⊥ := by
    obtain ⟨a, ha⟩ := hl 0
    have h0 : l 0 ≤ rowMax l := (Finset.le_fold_max (l 0)).mpr (Or.inr ⟨0, Finset.mem_univ _, le_rfl⟩)
    intro h
    rw [h, ha] at h0
    exact absurd (le_bot_iff.mp h0) (EReal.coe_ne_bot a)
  have ht : rowMax l ≠ ⊤ := by
    have h : rowMax l < ⊤ := (Finset.fold_max_lt ⊤).mpr ⟨bot_lt_top, fun k _ => by
      obtain ⟨a, ha⟩ := hl k; rw [ha]; exact EReal.coe_lt_top a⟩
    exact h.ne
  exact ⟨(rowMax l).toReal, (EReal.coe_toReal ht hb).symm⟩

/-- With real logits a_k and real maximum M the shifted exponential is the real exp (a_k − M). -/
theorem ex_coe (l : Fin n → EReal) (a : Fin n → ℝ) (ha : ∀ k, l k = (a k : EReal)) (M : ℝ) (hM : rowMax l = (M : EReal)) (k : Fin n) :
    ex l k = ((Real.exp (a k - M) : ℝ) : EReal) := by
  unfold ex; rw [ha, hM, ← EReal.coe_sub, Ideal.exp_coe]

/-- and their total the positive real Σ exp (a_k − M). -/
theorem tot_coe [NeZero n] (l : Fin n → EReal) (a : Fin n → ℝ) (ha : ∀ k, l k = (a k : EReal)) (M : ℝ) (hM : rowMax l = (M : EReal)) :
    tot l = ((∑ k, Real.exp (a k - M) : ℝ) : EReal) ∧ 0 < ∑ k, Real.exp (a k - M) := by
  refine ⟨?_, Finset.sum_pos (fun k _ => Real.exp_pos _) ⟨0, Finset.mem_univ _⟩⟩
  unfold tot; rw [coe_sum]; exact Finset.sum_congr rfl fun k _ => ex_coe l a ha M hM k

/-- THE NORMALISED EXPONENTIAL: the product with the reciprocal of the total is the quotient by the total. -/
theorem probs_eq [NeZero n] (l : Fin n → EReal) (hl : ∀ k, IsReal (l k)) (k : Fin n) :
    ex l k * Ideal.div 1 (tot l) = Ideal.div (ex l k) (tot l) := by
  choose a ha using hl
  obtain ⟨M, hM⟩ := isReal_rowMax l fun k => ⟨a k, ha k⟩
  obtain ⟨hS, hpos⟩ := tot_coe l a ha M hM
  rw [hS, Ideal.div_coe hpos.ne', Ideal.div_coe hpos.ne', one_mul]

/-- THE EXPECTED VALUE: the reciprocal of the total applied after the weighted sum is the weighted sum of the
    quotients. -/
theorem val_eq [NeZero n] (l β : Fin n → EReal) (hl : ∀ k, IsReal (l k)) (hβ : ∀ k, IsReal (β k)) :
    (∑ k, ex l k * β k) * Ideal.div 1 (tot l) = ∑ k, Ideal.div (ex l k) (tot l) * β k := by
  choose a ha using hl
  choose bb hb using hβ
  obtain ⟨M, hM⟩ := isReal_rowMax l fun k => ⟨a k, ha k⟩
  obtain ⟨hS, hpos⟩ := tot_coe l a ha M hM
  rw [hS]
  simp only [Ideal.div_coe hpos.ne', one_mul, ex_coe l a ha M hM, hb, ← EReal.coe_mul, ← coe_sum]
  refine congrArg _ ?_
  rw [Finset.sum_mul]
  exact Finset.sum_congr rfl fun k _ => by ring

end Cert.Softmax

end
-- ==== Proof.LibTileSum.lean ====
/-
  Sums over tiled and over unit-axis index sets, over any additive commutative monoid.

  * A sum over the indices of a rank-4 shape [n0, 1, n2, n3] is the triple sum over its coordinates on axes 0, 2, 3.
  * A sum over a * b positions is the sum over a tiles of the sum over the b positions of each tile, position r of
    tile t being b * t + r.
  * A sequence that starts at zero and adds f n at step n is the running sum of f.
-/
import Idealize.ShloMosaic.Lib.ValueIdx

noncomputable section

open scoped BigOperators

namespace Cert.Lib.TileSum

open Idealize.ShloMosaic Idealize.ShloMosaic.ValueIdx

/-! ## A rank-4 index set with a unit second axis is the product of its three other coordinate ranges -/

/-- An index of shape `[n0, 1, n2, n3]` is its coordinates on axes 0, 2, 3 (axis 1 has one point). -/
def idxEquiv4u {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    funext a
    match a with
    | ⟨0, _⟩ => rfl
    | ⟨1, _⟩ => exact Subsingleton.elim (α := Fin 1) _ _
    | ⟨2, _⟩ => rfl
    | ⟨3, _⟩ => rfl
  right_inv _ := rfl

/-- A sum over every index of shape `[n0, 1, n2, n3]` is the triple sum over the coordinates on axes 0, 2, 3. -/
theorem sum_idx4u {M : Type*} [AddCommMonoid M] {n0 n2 n3 : Nat} (f : (⟨4, ![n0, 1, n2, n3]⟩ : Shape).Idx → M) :
    ∑ i, f i = ∑ a : Fin n0, ∑ b : Fin n2, ∑ c : Fin n3, f (ix4 a (0 : Fin 1) b c) := by
  rw [← Equiv.sum_comp (idxEquiv4u (n0 := n0) (n2 := n2) (n3 := n3)).symm f, Fintype.sum_prod_type]
  refine Finset.sum_congr rfl fun a _ => ?_
  rw [Fintype.sum_prod_type]
  rfl

/-! ## Tiles -/

section Laws
variable {M : Type*} [AddCommMonoid M]

/-- Position `r` of tile `t`, among `a` tiles of `b` positions each, is below `a * b`. -/
theorem tile_lt {a b t r : ℕ} (ht : t < a) (hr : r < b) : b * t + r < a * b :=
  calc b * t + r < b * t + b := Nat.add_lt_add_left hr _
    _ = b * (t + 1) := (Nat.mul_succ b t).symm
    _ ≤ b * a := Nat.mul_le_mul_left b ht
    _ = a * b := Nat.mul_comm b a

/-- A sum over `a * b` positions is the sum over `a` tiles of the sum over the `b` positions of each tile. -/
theorem sum_fin_tiles (a b : ℕ) (g : Fin (a * b) → M) :
    ∑ n, g n = ∑ t : Fin a, ∑ r : Fin b, g ⟨b * t.val + r.val, tile_lt t.isLt r.isLt⟩ := by
  rw [← Equiv.sum_comp (finProdFinEquiv (m := a) (n := b)) g, Fintype.sum_prod_type]
  refine Finset.sum_congr rfl fun t _ => Finset.sum_congr rfl fun r _ => congrArg g (Fin.ext ?_)
  show r.val + b * t.val = b * t.val + r.val
  exact Nat.add_comm _ _

/-- THE FOLD LAW: a sequence that starts at zero and adds `f n` at step `n` is the running sum of `f`. -/
theorem fold_eq_sum (f g : ℕ → M) (h0 : g 0 = 0) (hs : ∀ n, g (n + 1) = g n + f n) (n : ℕ) :
    g n = ∑ i ∈ Finset.range n, f i := by
  induction n with
  | zero => rw [h0, Finset.range_zero, Finset.sum_empty]
  | succ n ih => rw [hs, ih, Finset.sum_range_succ]

end Laws

end Cert.Lib.TileSum

end
-- ==== Proof.LibTilesOfEq.lean ====
/-
  The tiling law for an index range whose size is given as a product.

  A sum over n positions, where n = a * b, is the sum over the a tiles of the sum over the b positions of each tile,
  position r of tile t being b * t + r. The size n is a variable tied to the product by a hypothesis, not the product
  itself: at a literal size such as 8192 = 16 * 512 the law then applies directly to functions on the 8192 positions,
  and the two spellings of the size are related only by that one numeric equation.
-/
import proofs.«125217_j81741817577604_2_alg».proof.Proof.LibTileSum

noncomputable section

open scoped BigOperators

namespace Cert.Lib.TilesOfEq

/-- A sum over the n = a * b positions is the sum over the a tiles of the sum over the b positions b * t + r of each. -/
theorem sum_tiles_of_eq {M : Type*} [AddCommMonoid M] (a b n : ℕ) (h : a * b = n) (g : Fin n → M) :
    ∑ i, g i = ∑ t : Fin a, ∑ r : Fin b,
      g ⟨b * t.val + r.val, by rw [← h]; exact Cert.Lib.TileSum.tile_lt t.isLt r.isLt⟩ := by
  subst h
  exact Cert.Lib.TileSum.sum_fin_tiles a b g

end Cert.Lib.TilesOfEq

end
-- ==== Proof.LibOnlineSoftmax.lean ====
/-
  The running maximum and running sum of shifted exponentials that an online softmax keeps, on the extended reals.

  A row of N = T * W entries is met in T tiles of W entries each. After each tile the pair (m, s) is updated:
      m' = max m (largest entry of the tile),
      s' = exp (m - m') * s + sum over the tile of exp (entry - m'),
  starting at the first tile from m = -inf and s = 0. When every entry is a real number, after the last tile m is the
  largest entry of the whole row and s is the sum over the whole row of exp (entry - m): rescaling the old sum by
  exp (m - m') turns each old term exp (entry - m) into exp (entry - m'), because exp (a - b) * exp (b - c) = exp (a - c)
  on real numbers. At the first tile exp (-inf - m') = 0 and 0 * 0 = 0, so the start values contribute nothing.
  With an infinite entry the identity fails, which is why the entries are asked to be real.

  Also: the largest entry of the row shifted by its own maximum is 0.
-/
import proofs.«125217_j81741817577604_2_alg».proof.Proof.LibSoftmaxRow
import proofs.«125217_j81741817577604_2_alg».proof.Proof.LibTilesOfEq

noncomputable section

open scoped BigOperators

namespace Cert.OnlineSoftmax

open Idealize.ShloMosaic Cert.Algebra Cert.Softmax

variable {W : ℕ}

/-- The largest entry of one tile: the fold of max from -inf. -/
def tileMax (x : Fin W → EReal) : EReal := (Finset.univ : Finset (Fin W)).fold max ⊥ x

/-- The running maximum after a tile. -/
def stepM (m : EReal) (x : Fin W → EReal) : EReal := max m (tileMax x)

/-- The running sum after a tile: the old sum rescaled to the new maximum, plus the tile's shifted exponentials. -/
def stepL (m s : EReal) (x : Fin W → EReal) : EReal :=
  Ideal.exp (m - stepM m x) * s + ∑ q, Ideal.exp (x q - stepM m x)

/-- The pair (running maximum, running sum) after tiles 0 … n. -/
def onl (x : ℕ → Fin W → EReal) : ℕ → EReal × EReal
  | 0 => (stepM ⊥ (x 0), stepL ⊥ 0 (x 0))
  | n + 1 => (stepM (onl x n).1 (x (n + 1)), stepL (onl x n).1 (onl x n).2 (x (n + 1)))

theorem onl_zero (x : ℕ → Fin W → EReal) : onl x 0 = (stepM ⊥ (x 0), stepL ⊥ 0 (x 0)) := rfl
theorem onl_succ (x : ℕ → Fin W → EReal) (n : ℕ) :
    onl x (n + 1) = (stepM (onl x n).1 (x (n + 1)), stepL (onl x n).1 (onl x n).2 (x (n + 1))) := rfl

/-! ## The largest of finitely many extended reals, when it is attained -/

/-- The fold of max from -inf over a finite family is M as soon as M bounds every entry and is one of them. -/
theorem fold_max_eq_of_attained {n : ℕ} (f : Fin n → EReal) (M : EReal) (hle : ∀ j, f j ≤ M) (j0 : Fin n)
    (hj0 : f j0 = M) : (Finset.univ : Finset (Fin n)).fold max ⊥ f = M :=
  le_antisymm ((Finset.fold_max_le M).mpr ⟨bot_le, fun j _ => hle j⟩)
    ((Finset.le_fold_max M).mpr (Or.inr ⟨j0, Finset.mem_univ _, hj0.ge⟩))

/-- The coercion of the larger of two reals is the larger of the coercions. -/
theorem coe_max_real (u v : ℝ) : ((max u v : ℝ) : EReal) = max (u : EReal) (v : EReal) := by
  rcases le_total u v with h | h
  · rw [max_eq_right h, max_eq_right (EReal.coe_le_coe_iff.mpr h)]
  · rw [max_eq_left h, max_eq_left (EReal.coe_le_coe_iff.mpr h)]

/-- The largest entry of a tile of W ≥ 1 reals is a real that bounds the tile and is one of its entries. -/
theorem tileMax_real (hW : 0 < W) (y : Fin W → EReal) (b : Fin W → ℝ) (hb : ∀ q, y q = (b q : EReal)) :
    ∃ Mt : ℝ, tileMax y = (Mt : EReal) ∧ (∀ q, b q ≤ Mt) ∧ ∃ q, b q = Mt := by
  haveI : Nonempty (Fin W) := ⟨⟨0, hW⟩⟩
  obtain ⟨q0, -, hq0⟩ := Finset.exists_max_image (Finset.univ : Finset (Fin W)) b Finset.univ_nonempty
  refine ⟨b q0, ?_, fun q => hq0 q (Finset.mem_univ q), q0, rfl⟩
  exact fold_max_eq_of_attained y _ (fun q => by rw [hb]; exact EReal.coe_le_coe_iff.mpr (hq0 q (Finset.mem_univ q))) q0 (hb q0)

/-! ## One step on real data -/

/-- From the start value -inf the running maximum after a tile is the tile's maximum. -/
theorem stepM_bot (Mt : ℝ) (y : Fin W → EReal) (hy : tileMax y = (Mt : EReal)) : stepM ⊥ y = (Mt : EReal) := by
  unfold stepM; rw [hy]; exact max_eq_right bot_le

/-- From the start values (-inf, 0) the running sum after a tile is the tile's sum of shifted exponentials:
    exp (-inf - m') = 0 and 0 * 0 = 0. -/
theorem stepL_bot (Mt : ℝ) (y : Fin W → EReal) (b : Fin W → ℝ) (hb : ∀ q, y q = (b q : EReal))
    (hy : tileMax y = (Mt : EReal)) : stepL ⊥ 0 y = ((∑ q, Real.exp (b q - Mt) : ℝ) : EReal) := by
  unfold stepL
  rw [stepM_bot Mt y hy, EReal.bot_sub, Ideal.exp_bot, zero_mul, zero_add, coe_sum]
  refine Finset.sum_congr rfl fun q _ => ?_
  rw [hb, ← EReal.coe_sub, Ideal.exp_coe]

/-- From a real running maximum M the new one is the real max M Mt. -/
theorem stepM_coe (M Mt : ℝ) (y : Fin W → EReal) (hy : tileMax y = (Mt : EReal)) :
    stepM (M : EReal) y = ((max M Mt : ℝ) : EReal) := by
  unfold stepM; rw [hy, coe_max_real]

/-- From a real pair (M, S) the new running sum is the real exp (M - M') * S + sum of exp (entry - M'), M' = max M Mt. -/
theorem stepL_coe (M S Mt : ℝ) (y : Fin W → EReal) (b : Fin W → ℝ) (hb : ∀ q, y q = (b q : EReal))
    (hy : tileMax y = (Mt : EReal)) :
    stepL (M : EReal) (S : EReal) y
      = ((Real.exp (M - max M Mt) * S + ∑ q, Real.exp (b q - max M Mt) : ℝ) : EReal) := by
  unfold stepL
  rw [stepM_coe M Mt y hy, ← EReal.coe_sub, Ideal.exp_coe, ← EReal.coe_mul, EReal.coe_add, coe_sum]
  congr 1
  refine Finset.sum_congr rfl fun q _ => ?_
  rw [hb, ← EReal.coe_sub, Ideal.exp_coe]

/-- Rescaling by exp (M - M') moves every term exp (entry - M) to exp (entry - M'). -/
theorem rescale (s : Finset ℕ) (A : ℕ → Fin W → ℝ) (M M' : ℝ) :
    Real.exp (M - M') * ∑ k ∈ s, ∑ q, Real.exp (A k q - M) = ∑ k ∈ s, ∑ q, Real.exp (A k q - M') := by
  rw [Finset.mul_sum]
  refine Finset.sum_congr rfl fun k _ => ?_
  rw [Finset.mul_sum]
  refine Finset.sum_congr rfl fun q _ => ?_
  rw [← Real.exp_add]
  congr 1
  ring

/-! ## The invariant -/

/-- After tiles 0 … n of real data A the running maximum is a real M that bounds those tiles and is one of their entries,
    and the running sum is the sum over those tiles of exp (entry - M). -/
theorem onl_inv (hW : 0 < W) (T : ℕ) (x : ℕ → Fin W → EReal) (A : ℕ → Fin W → ℝ)
    (hA : ∀ k, k < T → ∀ q, x k q = (A k q : EReal)) (n : ℕ) (hn : n < T) :
    ∃ M : ℝ, (onl x n).1 = (M : EReal) ∧ (∀ k, k ≤ n → ∀ q, A k q ≤ M) ∧ (∃ k, k ≤ n ∧ ∃ q, A k q = M) ∧
      (onl x n).2 = ((∑ k ∈ Finset.range (n + 1), ∑ q, Real.exp (A k q - M) : ℝ) : EReal) := by
  induction n with
  | zero =>
    obtain ⟨Mt, hMt, hle, q0, hq0⟩ := tileMax_real hW (x 0) (A 0) (hA 0 hn)
    refine ⟨Mt, ?_, ?_, ⟨0, le_rfl, q0, hq0⟩, ?_⟩
    · rw [onl_zero]; exact stepM_bot Mt _ hMt
    · intro k hk q
      obtain rfl : k = 0 := by omega
      exact hle q
    · rw [onl_zero]
      show stepL ⊥ 0 (x 0) = _
      rw [stepL_bot Mt _ (A 0) (hA 0 hn) hMt, Finset.sum_range_one]
  | succ n ih =>
    obtain ⟨M, hM, hle, ⟨k0, hk0, q0, hq0⟩, hS⟩ := ih (by omega)
    obtain ⟨Mt, hMt, hlet, qt, hqt⟩ := tileMax_real hW (x (n + 1)) (A (n + 1)) (hA (n + 1) hn)
    refine ⟨max M Mt, ?_, ?_, ?_, ?_⟩
    · rw [onl_succ]
      show stepM (onl x n).1 (x (n + 1)) = _
      rw [hM]; exact stepM_coe M Mt _ hMt
    · intro k hk q
      by_cases hkn : k ≤ n
      · exact le_trans (hle k hkn q) (le_max_left _ _)
      · obtain rfl : k = n + 1 := by omega
        exact le_trans (hlet q) (le_max_right _ _)
    · rcases le_total M Mt with hmm | hmm
      · exact ⟨n + 1, le_rfl, qt, by rw [hqt, max_eq_right hmm]⟩
      · exact ⟨k0, by omega, q0, by rw [hq0, max_eq_left hmm]⟩
    · rw [onl_succ]
      show stepL (onl x n).1 (onl x n).2 (x (n + 1)) = _
      rw [hM, hS, stepL_coe M _ Mt _ (A (n + 1)) (hA (n + 1) hn) hMt]
      refine congrArg _ ?_
      rw [Finset.sum_range_succ (fun k => ∑ q, Real.exp (A k q - max M Mt)) (n + 1), rescale]

/-- THE ONLINE SOFTMAX: over the T tiles of a row of N = T * W real entries (tile k, lane q at position W * k + q) the
    running pair ends at the row's maximum and the row's sum of shifted exponentials. -/
theorem onl_flat (T N : ℕ) (hT : 0 < T) (hW : 0 < W) (h : T * W = N) (l : Fin N → EReal) (hl : ∀ j, IsReal (l j))
    (x : ℕ → Fin W → EReal)
    (hx : ∀ k (hk : k < T) (q : Fin W),
      x k q = l ⟨W * k + q.val, by rw [← h]; exact Cert.Lib.TileSum.tile_lt hk q.isLt⟩) :
    (onl x (T - 1)).1 = rowMax l ∧ (onl x (T - 1)).2 = tot l := by
  haveI : NeZero N := ⟨by have := Nat.mul_pos hT hW; omega⟩
  choose a ha using hl
  have hlt : ∀ k, k < T → ∀ q : Fin W, W * k + q.val < N := fun k hk q => by
    rw [← h]; exact Cert.Lib.TileSum.tile_lt hk q.isLt
  -- the real tiles
  let A : ℕ → Fin W → ℝ := fun k q => if hk : k < T then a ⟨W * k + q.val, hlt k hk q⟩ else 0
  have hA : ∀ k (hk : k < T) (q : Fin W), A k q = a ⟨W * k + q.val, hlt k hk q⟩ := fun k hk q => dif_pos hk
  have hxA : ∀ k, k < T → ∀ q, x k q = (A k q : EReal) := fun k hk q => by rw [hx k hk q, ha, hA k hk q]
  obtain ⟨M, hM, hle, ⟨k0, hk0, q0, hq0⟩, hS⟩ := onl_inv hW T x A hxA (T - 1) (by omega)
  have hk0T : k0 < T := by omega
  -- the running maximum is the row's: every position j is lane j % W of tile j / W
  have hrow : rowMax l = (M : EReal) := by
    refine fold_max_eq_of_attained l _ (fun j => ?_) ⟨W * k0 + q0.val, hlt k0 hk0T q0⟩ ?_
    · have hjW : j.val / W < T := Nat.div_lt_of_lt_mul (by rw [Nat.mul_comm, h]; exact j.isLt)
      have hj : A (j.val / W) ⟨j.val % W, Nat.mod_lt _ hW⟩ = a j := by
        rw [hA _ hjW]
        exact congrArg a (Fin.ext (Nat.div_add_mod j.val W))
      rw [ha, ← hj]
      exact EReal.coe_le_coe_iff.mpr (hle _ (by omega) _)
    · rw [ha, ← hA k0 hk0T q0, hq0]
  refine ⟨hM.trans hrow.symm, ?_⟩
  -- the running sum is the row's: the sum over the row is the sum over its tiles
  rw [hS, (tot_coe l a ha M hrow).1]
  refine congrArg _ ?_
  rw [Nat.sub_add_cancel hT, Finset.sum_range,
    Cert.Lib.TilesOfEq.sum_tiles_of_eq T W N h (fun j => Real.exp (a j - M))]
  refine Finset.sum_congr rfl fun t _ => Finset.sum_congr rfl fun q _ => ?_
  rw [hA t.val t.isLt q]

/-- The largest entry of a real row shifted by its own maximum is 0. -/
theorem rowMax_shift {n : ℕ} [NeZero n] (l : Fin n → EReal) (hl : ∀ j, IsReal (l j)) :
    rowMax (fun j => l j - rowMax l) = 0 := by
  choose a ha using hl
  obtain ⟨M, hM⟩ := isReal_rowMax l fun k => ⟨a k, ha k⟩
  -- M bounds the row
  have hle : ∀ j, a j ≤ M := fun j => by
    have hj : l j ≤ rowMax l := (Finset.le_fold_max (l j)).mpr (Or.inr ⟨j, Finset.mem_univ _, le_rfl⟩)
    rw [ha, hM] at hj
    exact EReal.coe_le_coe_iff.mp hj
  -- and is one of its entries: otherwise every entry, and so the fold, is strictly below M
  have hatt : ∃ j, a j = M := by
    by_contra hne
    have hlt : rowMax l < (M : EReal) := (Finset.fold_max_lt (M : EReal)).mpr ⟨EReal.bot_lt_coe M, fun j _ => by
      rw [ha]
      exact EReal.coe_lt_coe_iff.mpr (lt_of_le_of_ne (hle j) fun hj => hne ⟨j, hj⟩)⟩
    rw [hM] at hlt
    exact lt_irrefl _ hlt
  obtain ⟨j0, hj0⟩ := hatt
  have hsh : ∀ j, l j - rowMax l = ((a j - M : ℝ) : EReal) := fun j => by rw [ha, hM, ← EReal.coe_sub]
  refine fold_max_eq_of_attained _ 0 (fun j => ?_) j0 ?_
  · show l j - rowMax l ≤ 0
    rw [hsh]
    exact EReal.coe_nonpos.mpr (sub_nonpos.mpr (hle j))
  · show l j0 - rowMax l = 0
    rw [hsh, hj0, sub_self, EReal.coe_zero]

end Cert.OnlineSoftmax

end
-- ==== Proof.KernelPayload.lean ====
import proofs.«125217_j81741817577604_2_alg».proof.Defs
import proofs.«125217_j81741817577604_2_alg».proof.Proof.Gen.KernelIdeal.Frame
import proofs.«125217_j81741817577604_2_alg».proof.Proof.LibRowReduce
import proofs.«125217_j81741817577604_2_alg».proof.Proof.LibKeepdims
import proofs.«125217_j81741817577604_2_alg».proof.Proof.LibOnlineSoftmax
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Payload

open Cert.KernelIdeal Cert.KernelIdeal.Gen

/-! The body's arithmetic read at one row of a block, on the extended reals. For row p of a 256-row block whose tile is
    v (256 × 6400), with the running maximum m and running sum s the body finds in row p:
      the new maximum is max m (largest of v's row p);
      the new sum is exp (m − new maximum) · s + Σ over the row of exp (entry − new maximum);
      the output entry is 0 − log (exp (t − m) / s + ε) for the target logit t.
    The start values are −∞ and 0. -/

open Idealize.ShloMosaic.ValueIdx Cert.OnlineSoftmax

theorem pay1_at (p : Fin 256) : ((k0_pay1 (F := Ideal)) (ix2 p (0 : Fin 1)) : EReal) = ⊥ := by
  unfold k0_pay1
  simp only [shapeCast_self]
  exact Cert.Softmax.negInf_f32

theorem pay2_at (p : Fin 256) : ((k0_pay2 (F := Ideal)) (ix2 p (0 : Fin 1)) : EReal) = 0 := by
  unfold k0_pay2
  simp only [shapeCast_self]
  exact Ideal.ofBits_zero_f32

theorem pay3_at (v3 : Vec Ideal S256x6400 .f32) (v6 : Vec Ideal S256x1 .f32) (p : Fin 256) :
    (k0_pay3 v3 v6 (ix2 p (0 : Fin 1)) : EReal)
      = stepM (v6 (ix2 p (0 : Fin 1)) : EReal) (fun q : Fin 6400 => (v3 (ix2 p q) : EReal)) := by
  unfold k0_pay3 stepM tileMax
  show max (v6 (ix2 p (0 : Fin 1)) : EReal) _ = max _ _
  refine congrArg (max (v6 (ix2 p (0 : Fin 1)) : EReal)) ?_
  refine (shapeCast_a_a1_apply _ _ p 0).trans ?_
  refine Eq.trans (multiReduction_max_row v3 _ _ _ _ p) ?_
  rw [Cert.Softmax.negInf_f32]

theorem pay5_at (v3 : Vec Ideal S256x6400 .f32) (v6 : Vec Ideal S256x1 .f32) (p : Fin 256) :
    (k0_pay5 v3 v6 (ix2 p (0 : Fin 1)) : EReal)
      = stepM (v6 (ix2 p (0 : Fin 1)) : EReal) (fun q : Fin 6400 => (v3 (ix2 p q) : EReal)) := by
  unfold k0_pay5
  simp only [shapeCast_self]
  exact pay3_at v3 v6 p

theorem pay4_at (v3 : Vec Ideal S256x6400 .f32) (v6 v14 : Vec Ideal S256x1 .f32) (p : Fin 256) :
    (k0_pay4 v3 v6 v6 v14 (ix2 p (0 : Fin 1)) : EReal)
      = stepL (v6 (ix2 p (0 : Fin 1)) : EReal) (v14 (ix2 p (0 : Fin 1)) : EReal) (fun q : Fin 6400 => (v3 (ix2 p q) : EReal)) := by
  have e3 : ∀ q : Fin 6400, (broadcastTo S256x6400 (k0_pay3 v3 v6) Facts₀.broadcasts_S256x1_S256x6400 (ix2 p q) : EReal)
      = stepM (v6 (ix2 p (0 : Fin 1)) : EReal) (fun q : Fin 6400 => (v3 (ix2 p q) : EReal)) := fun q =>
    (broadcastTo_a1_ab_apply _ _ p q).trans (pay3_at v3 v6 p)
  unfold k0_pay4 stepL
  simp only [shapeCast_self]
  show (Ideal.exp ((v6 (ix2 p (0 : Fin 1)) : EReal) - k0_pay3 v3 v6 (ix2 p (0 : Fin 1))) * (v14 (ix2 p (0 : Fin 1)) : EReal) + _ : EReal) = _ + _
  refine congrArg₂ (· + ·) ?_ ?_
  · rw [pay3_at]
  · refine (shapeCast_a_a1_apply _ _ p 0).trans ?_
    refine Eq.trans (multiReduction_add_row _ _ _ _ _ p) ?_
    refine Finset.sum_congr rfl fun q _ => ?_
    show Ideal.exp ((v3 (ix2 p q) : EReal) - broadcastTo S256x6400 (k0_pay3 v3 v6) _ (ix2 p q)) = _
    rw [e3 q]

theorem pay6_at (v28 v30 v33 : Vec Ideal S256x1 .f32) (p : Fin 256) :
    (k0_pay6 v28 v30 v33 (ix2 p (0 : Fin 1)) : EReal)
      = 0 - Ideal.log (Ideal.div (Ideal.exp ((v28 (ix2 p (0 : Fin 1)) : EReal) - (v30 (ix2 p (0 : Fin 1)) : EReal))) (v33 (ix2 p (0 : Fin 1)) : EReal)
          + Ideal.ofBits .f32 0x2B8CBCCC#32) := by
  unfold k0_pay6
  simp only [shapeCast_self]
  show (Ideal.ofBits .f32 0x00000000#32 - _ : EReal) = _
  rw [Ideal.ofBits_zero_f32]
  rfl

end Cert.KernelIdeal.Payload

end
-- ==== Proof.KernelInvariant.lean ====
import proofs.«125217_j81741817577604_2_alg».proof.Defs
import proofs.«125217_j81741817577604_2_alg».proof.Proof.Gen.KernelIdeal.Frame
import proofs.«125217_j81741817577604_2_alg».proof.Proof.KernelPieces
import proofs.«125217_j81741817577604_2_alg».proof.Proof.KernelPayload
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Invariant

open Cert.KernelIdeal Cert.KernelIdeal.Gen

/-! The grid's 80 points are 16 row blocks of 256 rows times 5 column tiles of 6400 columns, point t being row block
    t / 5 and tile t % 5. After point t the two carried columns hold, in row p, the online pair (running maximum,
    running sum of shifted exponentials) after tiles 0 … t % 5 of row 256 · (t / 5) + p of the logits: at tile 0 the
    start values −∞ and 0 are stored first and read back, at every later tile the pair the point before left is read.
    At the last tile the output block's row p is 0 − log (exp (target − maximum) / sum + ε). -/

open Idealize.ShloMosaic.ValueIdx Cert.OnlineSoftmax Cert.KernelIdeal.Pieces Cert.KernelIdeal.Payload

variable (m : (ℓ : Loc nD τ sig) → Buf (Elt Ideal) ℓ)

/-- The windows' block indices at every point, decided over the grid. -/
theorem idx_facts : ∀ t : Fin cfg0.N,
    win0_0.index t (0 : Fin 2) = t.val / 5 ∧ win0_0.index t (1 : Fin 2) = t.val % 5
    ∧ win0_1.index t (0 : Fin 2) = t.val / 5 ∧ win0_1.index t (1 : Fin 2) = 0
    ∧ win0_2.index t (0 : Fin 2) = t.val / 5 ∧ win0_2.index t (1 : Fin 2) = 0 :=
  (by decide +kernel : ∀ t : Fin grid0.N, _)

theorem N80 : cfg0.N = 80 := N_0

/-- The logits' block at point t, entry (p, q): the array at row 256 · (t / 5) + p, column 6400 · (t % 5) + q. -/
theorem iblk0_at (c : Dev nD) (t : Fin cfg0.N) (p : Fin 256) (q : Fin 6400)
    (hr : 256 * (t.val / 5) + p.val < 4096) (hq : 6400 * (t.val % 5) + q.val < 32000) :
    (iblk m c 0 t (ix2 p q) : EReal)
      = V m c main_arg0 (ix2 (⟨256 * (t.val / 5) + p.val, hr⟩ : Fin 4096) (⟨6400 * (t.val % 5) + q.val, hq⟩ : Fin 32000)) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 256 + 1 * p.val = 256 * (t.val / 5) + p.val; rw [e0]; omega
  | ⟨1, _⟩ => show win0_0.index t (1 : Fin 2) * 6400 + 1 * q.val = 6400 * (t.val % 5) + q.val; rw [e1]; omega

/-- The target column's block at point t, entry (p, 0): the array at row 256 · (t / 5) + p. -/
theorem iblk1_at (c : Dev nD) (t : Fin cfg0.N) (p : Fin 256) (hr : 256 * (t.val / 5) + p.val < 4096) :
    (iblk m c 1 t (ix2 p (0 : Fin 1)) : EReal)
      = V m c main_v1 (ix2 (⟨256 * (t.val / 5) + p.val, hr⟩ : Fin 4096) (0 : Fin 1)) := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 256 + 1 * p.val = 256 * (t.val / 5) + p.val; rw [e0]; omega
  | ⟨1, _⟩ => show win0_1.index t (1 : Fin 2) * 1 + 1 * 0 = 0; rw [e1]

/-- The tiles of row r of an array of logits: tile k, lane q is column 6400 · k + q (k < 5). -/
def tiles (X : S4096x32000.Idx → EReal) (r : Fin 4096) : ℕ → Fin 6400 → EReal :=
  fun k q => if h : k < 5 then X (ix2 r (⟨6400 * k + q.val, by have := q.isLt; omega⟩ : Fin 32000)) else 0

/-- The row of the logits that row p of point t's blocks is. -/
def rowAt (n : ℕ) (hn : n < 80) (p : Fin 256) : Fin 4096 := ⟨256 * (n / 5) + p.val, by have := p.isLt; omega⟩

/-- Row p of the logits' block at point t is tile t % 5 of its row. -/
theorem tile_eq (c : Dev nD) (t : Fin cfg0.N) (p : Fin 256) :
    (fun q : Fin 6400 => (iblk m c 0 t (ix2 p q) : EReal))
      = tiles (V m c main_arg0) (rowAt t.val (lt_of_lt_of_eq t.isLt N80) p) (t.val % 5) := by
  funext q
  have hN : t.val < 80 := lt_of_lt_of_eq t.isLt N80
  have hk : t.val % 5 < 5 := Nat.mod_lt _ (by decide)
  rw [iblk0_at m c t p q (by have := p.isLt; omega) (by have := q.isLt; omega)]
  unfold tiles rowAt
  rw [dif_pos hk]

/-- What a first-tile point leaves in the two carried columns. -/
theorem carried_first (c : Dev nD) (t : Fin cfg0.N) (h0 : t.val % 5 = 0) :
    (outsAt0 m c t.val t.isLt).2
      = (k0_pay5 (iblk m c 0 t) (k0_pay1 (F := Ideal)), k0_pay4 (iblk m c 0 t) (k0_pay1 (F := Ideal)) (k0_pay1 (F := Ideal)) (k0_pay2 (F := Ideal))) := by
  have h1 : ¬t.val % 5 = 4 := by omega
  rw [outsAt0_A m c t h0 h1]
  exact Prod.ext (maxA (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)) (sumA (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t))

/-- What a later point leaves in the two carried columns, from what the point before left. -/
theorem carried_next (c : Dev nD) (t : Fin cfg0.N) (h0 : ¬t.val % 5 = 0) :
    (outsAt0 m c t.val t.isLt).2
      = (k0_pay5 (iblk m c 0 t) (outsAt0 m c (t.val - 1) (Nat.lt_of_le_of_lt (Nat.sub_le _ _) t.isLt)).2.1,
         k0_pay4 (iblk m c 0 t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2) := by
  by_cases h1 : t.val % 5 = 4
  · rw [outsAt0_C m c t h0 h1]
    exact Prod.ext (maxC (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) (sumC (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2)
  · rw [outsAt0_B m c t h0 h1]
    exact Prod.ext (maxB (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2) (sumB (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2)

/-- What a last-tile point leaves in the output block. -/
theorem out_last (c : Dev nD) (t : Fin cfg0.N) (h0 : ¬t.val % 5 = 0) (h1 : t.val % 5 = 4) :
    (outsAt0 m c t.val t.isLt).1
      = k0_pay6 (iblk m c 1 t) (k0_pay5 (iblk m c 0 t) (outsAt0 m c (t.val - 1) (Nat.lt_of_le_of_lt (Nat.sub_le _ _) t.isLt)).2.1) (k0_pay4 (iblk m c 0 t) (outsAt0 m c (t.val - 1) (Nat.lt_of_le_of_lt (Nat.sub_le _ _) t.isLt)).2.1 (outsAt0 m c (t.val - 1) (Nat.lt_of_le_of_lt (Nat.sub_le _ _) t.isLt)).2.1 (outsAt0 m c (t.val - 1) (Nat.lt_of_le_of_lt (Nat.sub_le _ _) t.isLt)).2.2) := by
  rw [outsAt0_C m c t h0 h1]
  exact outC (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-- At the first tile: from the start values the two carried entries are the online pair after tile 0. -/
theorem step_first (x0 : Vec Ideal S256x6400 .f32) (p : Fin 256) (x : ℕ → Fin 6400 → EReal)
    (hx : (fun q : Fin 6400 => (x0 (ix2 p q) : EReal)) = x 0) :
    (k0_pay5 x0 (k0_pay1 (F := Ideal)) (ix2 p (0 : Fin 1)) : EReal) = (onl x 0).1
      ∧ (k0_pay4 x0 (k0_pay1 (F := Ideal)) (k0_pay1 (F := Ideal)) (k0_pay2 (F := Ideal)) (ix2 p (0 : Fin 1)) : EReal) = (onl x 0).2 := by
  constructor
  · rw [pay5_at, pay1_at, hx]; rfl
  · rw [pay4_at, pay1_at, pay2_at, hx]; rfl

/-- At a later tile: from the pair after tile k the two carried entries are the online pair after tile k + 1. -/
theorem step_next (x0 : Vec Ideal S256x6400 .f32) (xs0 xs1 : Vec Ideal S256x1 .f32) (p : Fin 256) (x : ℕ → Fin 6400 → EReal) (k : ℕ)
    (hx : (fun q : Fin 6400 => (x0 (ix2 p q) : EReal)) = x (k + 1))
    (hM : (xs0 (ix2 p (0 : Fin 1)) : EReal) = (onl x k).1) (hS : (xs1 (ix2 p (0 : Fin 1)) : EReal) = (onl x k).2) :
    (k0_pay5 x0 xs0 (ix2 p (0 : Fin 1)) : EReal) = (onl x (k + 1)).1
      ∧ (k0_pay4 x0 xs0 xs0 xs1 (ix2 p (0 : Fin 1)) : EReal) = (onl x (k + 1)).2 := by
  constructor
  · rw [pay5_at, hM, hx]; rfl
  · rw [pay4_at, hM, hS, hx]; rfl

/-- The invariant at a first-tile point. -/
theorem carried_eq_first (c : Dev nD) (t : Fin cfg0.N) (h0 : t.val % 5 = 0) (p : Fin 256) :
    ((outsAt0 m c t.val t.isLt).2.1 (ix2 p (0 : Fin 1)) : EReal)
        = (onl (tiles (V m c main_arg0) (rowAt t.val (lt_of_lt_of_eq t.isLt N80) p)) (t.val % 5)).1
      ∧ ((outsAt0 m c t.val t.isLt).2.2 (ix2 p (0 : Fin 1)) : EReal)
        = (onl (tiles (V m c main_arg0) (rowAt t.val (lt_of_lt_of_eq t.isLt N80) p)) (t.val % 5)).2 := by
  have e := carried_first m c t h0
  have eM : (outsAt0 m c t.val t.isLt).2.1 = k0_pay5 (iblk m c 0 t) (k0_pay1 (F := Ideal)) := by rw [e]
  have eS : (outsAt0 m c t.val t.isLt).2.2 = k0_pay4 (iblk m c 0 t) (k0_pay1 (F := Ideal)) (k0_pay1 (F := Ideal)) (k0_pay2 (F := Ideal)) := by rw [e]
  have ht := tile_eq m c t p
  rw [h0] at ht
  rw [eM, eS, h0]
  exact step_first (iblk m c 0 t) p _ ht

/-- THE INVARIANT: after point t the carried columns hold, in row p, the online pair after tile t % 5 of that row; by
    induction on the point, the point before a later tile being in the same row block. -/
theorem carried_eq (c : Dev nD) : ∀ (n : ℕ) (t : Fin cfg0.N), t.val = n → ∀ p : Fin 256,
    ((outsAt0 m c t.val t.isLt).2.1 (ix2 p (0 : Fin 1)) : EReal)
        = (onl (tiles (V m c main_arg0) (rowAt t.val (lt_of_lt_of_eq t.isLt N80) p)) (t.val % 5)).1
      ∧ ((outsAt0 m c t.val t.isLt).2.2 (ix2 p (0 : Fin 1)) : EReal)
        = (onl (tiles (V m c main_arg0) (rowAt t.val (lt_of_lt_of_eq t.isLt N80) p)) (t.val % 5)).2
  | 0, t, ht, p => carried_eq_first m c t (by rw [ht]) p
  | n + 1, t, ht, p => by
    have hN : t.val < 80 := lt_of_lt_of_eq t.isLt N80
    by_cases h0 : t.val % 5 = 0
    · exact carried_eq_first m c t h0 p
    · have hlt : t.val - 1 < cfg0.N := Nat.lt_of_le_of_lt (Nat.sub_le _ _) t.isLt
      have e := carried_next m c t h0
      have eM : (outsAt0 m c t.val t.isLt).2.1 = k0_pay5 (iblk m c 0 t) (outsAt0 m c (t.val - 1) hlt).2.1 := by rw [e]
      have eS : (outsAt0 m c t.val t.isLt).2.2 = k0_pay4 (iblk m c 0 t) (outsAt0 m c (t.val - 1) hlt).2.1 (outsAt0 m c (t.val - 1) hlt).2.1 (outsAt0 m c (t.val - 1) hlt).2.2 := by rw [e]
      have ih := carried_eq c n ⟨t.val - 1, hlt⟩ (by show t.val - 1 = n; omega) p
      have hrow : rowAt (t.val - 1) (lt_of_lt_of_eq hlt N80) p = rowAt t.val hN p := by
        unfold rowAt; apply Fin.ext; show 256 * ((t.val - 1) / 5) + p.val = 256 * (t.val / 5) + p.val; omega
      have hk : t.val % 5 = (t.val - 1) % 5 + 1 := by omega
      have ihM : ((outsAt0 m c (t.val - 1) hlt).2.1 (ix2 p (0 : Fin 1)) : EReal)
          = (onl (tiles (V m c main_arg0) (rowAt t.val hN p)) ((t.val - 1) % 5)).1 := by rw [← hrow]; exact ih.1
      have ihS : ((outsAt0 m c (t.val - 1) hlt).2.2 (ix2 p (0 : Fin 1)) : EReal)
          = (onl (tiles (V m c main_arg0) (rowAt t.val hN p)) ((t.val - 1) % 5)).2 := by rw [← hrow]; exact ih.2
      have htile : (fun q : Fin 6400 => (iblk m c 0 t (ix2 p q) : EReal))
          = tiles (V m c main_arg0) (rowAt t.val hN p) ((t.val - 1) % 5 + 1) := by rw [← hk]; exact tile_eq m c t p
      rw [eM, eS, hk]
      exact step_next (iblk m c 0 t) _ _ p _ ((t.val - 1) % 5) htile ihM ihS

/-- One row's output entry, from the target logit and the online pair after the last tile. -/
def lossOf (t m s : EReal) : EReal := 0 - Ideal.log (Ideal.div (Ideal.exp (t - m)) s + Ideal.ofBits .f32 0x2B8CBCCC#32)

/-- THE OUTPUT BLOCK at a last-tile point, row p: the loss of row 256 · (t / 5) + p from its target logit and its online
    pair after tile 4. -/
theorem out_at (c : Dev nD) (t : Fin cfg0.N) (h1 : t.val % 5 = 4) (p : Fin 256) :
    ((outsAt0 m c t.val t.isLt).1 (ix2 p (0 : Fin 1)) : EReal)
      = lossOf (V m c main_v1 (ix2 (rowAt t.val (lt_of_lt_of_eq t.isLt N80) p) (0 : Fin 1)))
          (onl (tiles (V m c main_arg0) (rowAt t.val (lt_of_lt_of_eq t.isLt N80) p)) 4).1
          (onl (tiles (V m c main_arg0) (rowAt t.val (lt_of_lt_of_eq t.isLt N80) p)) 4).2 := by
  have h0 : ¬t.val % 5 = 0 := by omega
  have hN : t.val < 80 := lt_of_lt_of_eq t.isLt N80
  have hlt : t.val - 1 < cfg0.N := Nat.lt_of_le_of_lt (Nat.sub_le _ _) t.isLt
  have e := carried_next m c t h0
  have eM : (outsAt0 m c t.val t.isLt).2.1 = k0_pay5 (iblk m c 0 t) (outsAt0 m c (t.val - 1) hlt).2.1 := by rw [e]
  have eS : (outsAt0 m c t.val t.isLt).2.2 = k0_pay4 (iblk m c 0 t) (outsAt0 m c (t.val - 1) hlt).2.1 (outsAt0 m c (t.val - 1) hlt).2.1 (outsAt0 m c (t.val - 1) hlt).2.2 := by rw [e]
  obtain ⟨cM, cS⟩ := carried_eq m c t.val t rfl p
  rw [eM] at cM
  rw [eS] at cS
  rw [h1] at cM cS
  rw [out_last m c t h0 h1, pay6_at, cM, cS, iblk1_at m c t p (by have := p.isLt; omega)]
  rfl

end Cert.KernelIdeal.Invariant

end
-- ==== Proof.KernelFinal.lean ====
import proofs.«125217_j81741817577604_2_alg».proof.Defs
import proofs.«125217_j81741817577604_2_alg».proof.Proof.Gen.KernelIdeal.Frame
import proofs.«125217_j81741817577604_2_alg».proof.Proof.KernelInvariant
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Final

open Cert.KernelIdeal Cert.KernelIdeal.Gen

/-! The region's output column after the run. Only the last-tile points write their block back, and the block of point
    t is rows 256 · (t / 5) … 256 · (t / 5) + 255 of the [4096, 1] column; the sixteen such blocks tile it (row r lies
    in the block of point 5 · (r / 256) + 4). So the column ends holding, at every row, that row's loss from its target
    logit and its online pair after the fifth tile. -/

open Idealize.ShloMosaic.ValueIdx Cert.OnlineSoftmax Cert.KernelIdeal.Invariant

variable (m : (ℓ : Loc nD τ sig) → Buf (Elt Ideal) ℓ)

/-- The column the region leaves, as one function of the arrays it finds. -/
def lossCol (c : Dev nD) : S4096x1.Idx → EReal := fun j =>
  lossOf (V m c main_v1 (ix2 (⟨(j 0).val, idx2_lt0 j⟩ : Fin 4096) (0 : Fin 1)))
    (onl (tiles (V m c main_arg0) (⟨(j 0).val, idx2_lt0 j⟩ : Fin 4096)) 4).1
    (onl (tiles (V m c main_arg0) (⟨(j 0).val, idx2_lt0 j⟩ : Fin 4096)) 4).2

theorem lossCol_at (c : Dev nD) (r : Fin 4096) :
    lossCol m c (ix2 r (0 : Fin 1))
      = lossOf (V m c main_v1 (ix2 r (0 : Fin 1))) (onl (tiles (V m c main_arg0) r) 4).1 (onl (tiles (V m c main_arg0) r) 4).2 := rfl

/-- WHAT A LAST-TILE POINT WRITES BACK is its block of the loss column. -/
theorem flushed_eq (c : Dev nD) (t : Fin cfg0.N) (hf : (cfg0.win 2).flush t = true) :
    (dats m 0 c).flushed 2 t = ((cfg0.win 2).blk t).view.read (Elt Ideal) (lossCol m c) := by
  have h1 : t.val % 5 = 4 := (flush0_2 t).mp hf
  have hN : t.val < 80 := lt_of_lt_of_eq t.isLt N80
  obtain ⟨-, -, -, -, e0, e1⟩ := idx_facts t
  show (cfg0.win 2).cut (grid0.coords t) ((dats m 0 c).after 2 t) = _
  rw [after0_2]
  funext y
  obtain ⟨p, u, rfl⟩ : ∃ (p : Fin 256) (u : Fin 1), y = ix2 p u := ⟨y 0, y 1, eq_ix2 y⟩
  obtain rfl : u = 0 := Subsingleton.elim _ _
  rw [View.read_apply]
  show ((outsAt0 m c t.val t.isLt).1 (ix2 p (0 : Fin 1)) : EReal) = lossCol m c (((cfg0.win 2).blk t).view.emb (ix2 p (0 : Fin 1)))
  have hemb : ((cfg0.win 2).blk t).view.emb (ix2 p (0 : Fin 1)) = ix2 (rowAt t.val hN p) (0 : Fin 1) := by
    funext a
    apply Fin.ext
    match a with
    | ⟨0, _⟩ => show win0_2.index t (0 : Fin 2) * 256 + 1 * p.val = 256 * (t.val / 5) + p.val; rw [e0]; omega
    | ⟨1, _⟩ => show win0_2.index t (1 : Fin 2) * 1 + 1 * 0 = 0; rw [e1]
  rw [hemb, lossCol_at, out_at m c t h1 p]

/-- An index of the column is in point t's block iff each coordinate is in the block's range on its axis. -/
theorem mem_blk (t : Fin cfg0.N) (i : S4096x1.Idx) :
    i ∈ ((cfg0.win 2).blk t).view.set
      ↔ ∀ a : Fin 2, win0_2.index t a * S256x1.size a ≤ (i a).val ∧ (i a).val < win0_2.index t a * S256x1.size a + S256x1.size a := by
  show i ∈ ((View.whole main_v2).slice (win0_2.rect t)).set ↔ _
  rw [View.set_slice_whole, Rect.mem_set_unit]
  exact Iff.rfl

/-- Every row of the column is in the block some last-tile point writes back. -/
theorem cover (i : S4096x1.Idx) : ∃ t : Fin cfg0.N, (cfg0.win 2).flush t = true ∧ i ∈ ((cfg0.win 2).blk t).view.set := by
  have hi0 : (i 0).val < 4096 := idx2_lt0 i
  have hi1 : (i 1).val < 1 := idx2_lt1 i
  have hlt : 5 * ((i 0).val / 256) + 4 < cfg0.N := by rw [N80]; omega
  refine ⟨⟨5 * ((i 0).val / 256) + 4, hlt⟩, (flush0_2 _).mpr (by show (5 * ((i 0).val / 256) + 4) % 5 = 4; omega), ?_⟩
  rw [mem_blk]
  obtain ⟨-, -, -, -, e0, e1⟩ := idx_facts ⟨5 * ((i 0).val / 256) + 4, hlt⟩
  have e0' : win0_2.index ⟨5 * ((i 0).val / 256) + 4, hlt⟩ (0 : Fin 2) = (5 * ((i 0).val / 256) + 4) / 5 := e0
  intro a
  match a with
  | ⟨0, _⟩ =>
    show win0_2.index ⟨5 * ((i 0).val / 256) + 4, hlt⟩ (0 : Fin 2) * 256 ≤ (i 0).val
      ∧ (i 0).val < win0_2.index ⟨5 * ((i 0).val / 256) + 4, hlt⟩ (0 : Fin 2) * 256 + 256
    rw [e0']; omega
  | ⟨1, _⟩ =>
    show win0_2.index ⟨5 * ((i 0).val / 256) + 4, hlt⟩ (1 : Fin 2) * 1 ≤ (i 1).val
      ∧ (i 1).val < win0_2.index ⟨5 * ((i 0).val / 256) + 4, hlt⟩ (1 : Fin 2) * 1 + 1
    rw [e1]; omega

/-- THE COLUMN AFTER THE RUN is the loss column. -/
theorem final (c : Dev nD) : (dats m 0 c).arrAt 2 cfg0.N = lossCol m c :=
  (dats m 0 c).arrAt_eq_of_cover 2 (lossCol m c) (flushed_eq m c) cover

end Cert.KernelIdeal.Final

end
-- ==== Proof.LibTakeAlong.lean ====
/-
  Picking one entry per row: x[r, idx[r]] for a table x of A rows and N columns and one column number per row
  (take_along_axis along the second axis), as it lowers — the column numbers wrapped (a negative one has N added),
  a mask "the wrapped number is within 0 … N−1", a batched gather that clamps the number into the row, and a select
  that keeps the gathered entry where the mask holds and a fill value elsewhere.

  * rowPick_apply: the batched gather (operand axis 0 paired with index axis 0, axis 1 collapsed and indexed) read at
    (r, 0) is the table's entry in row r at the column number read signed and clamped into 0 … N−1.
  * taa_apply: when every column number is within 0 … N−1 the mask holds everywhere, nothing is wrapped, and the
    whole stage read at (r, 0) is the table's entry in row r at that row's column.
-/
import Idealize.ShloMosaic.PureOps
import Idealize.ShloMosaic.Lib.Pipeline.Value
import Idealize.ShloMosaic.Lib.ValueIdx
import Idealize.ShloMosaic.Lib.ValueLayout
import Idealize.ShloMosaic.Lib.ReduceAll

noncomputable section

namespace Cert.TakeAlong

open Idealize.ShloMosaic Idealize.ShloMosaic.ValueIdx

abbrev SX : Shape := ⟨2, ![4096, 32000]⟩
abbrev SC : Shape := ⟨2, ![4096, 1]⟩
abbrev SC3 : Shape := ⟨3, ![4096, 1, 1]⟩
abbrev S0 : Shape := ⟨0, ![]⟩
abbrev S1 : Shape := ⟨1, ![1]⟩
abbrev S111 : Shape := ⟨3, ![1, 1, 1]⟩

/-- The batched gather's dimension numbers: operand axis 0 and start-indices axis 0 are paired batch axes, operand axis 1
    is collapsed and is the one the start index names, the index vector is the start indices' last axis. -/
abbrev rowPickDims (wf : GatherDims.WF SX SC3 SC [] [1] [0] [1] [0] 2 ![1, 1]) : GatherDims SX SC3 SC where
  offsetDims := []
  collapsedSliceDims := [1]
  operandBatchingDims := [0]
  startIndicesBatchingDims := [0]
  startIndexMap := [1]
  indexVectorDim := 2
  sliceSizes := ![1, 1]
  wf := wf

/-- The column a start-index word names: read signed, clamped into 0 … 31999. -/
def colOf (w : BitVec 32) : Fin 32000 := ⟨min w.toInt.toNat 31999, by omega⟩

/-- THE BATCHED GATHER READ AT (r, 0): row r of the table at the column its start index names. -/
theorem rowPick_apply {α : Type} (wf : GatherDims.WF SX SC3 SC [] [1] [0] [1] [0] 2 ![1, 1])
    (x : SX.Idx → α) (idx : IVec SC3 32) (r : Fin 4096) :
    Host.gather (rowPickDims wf) x idx (ix2 r (0 : Fin 1)) = x (ix2 r (colOf (idx (ix3 r (0 : Fin 1) (0 : Fin 1))))) := by
  unfold Host.gather
  congr 1
  funext a
  refine Fin.ext ?_
  show (rowPickDims wf).start (ix2 r (0 : Fin 1)) idx a + (rowPickDims wf).batchCoord (ix2 r (0 : Fin 1)) a
    + (rowPickDims wf).offCoord (ix2 r (0 : Fin 1)) a = _
  match a with
  | ⟨0, _⟩ =>
    -- the batching axis: no start, no offset, the result's row coordinate
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin SX.rank) ∈ (rowPickDims wf).operandBatchingDims from List.mem_singleton.mpr rfl)]
    rfl
  | ⟨1, _⟩ =>
    -- the indexed axis: the clamped start index, no batch coordinate, no offset
    rw [GatherDims.batchCoord_eq_zero _ _ _ (fun h => Nat.one_ne_zero (congrArg Fin.val (List.mem_singleton.mp h))),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin SX.rank) ∈ (rowPickDims wf).startIndexMap from List.mem_singleton.mpr rfl)]
    have hsi : (rowPickDims wf).siIdx (ix2 r (0 : Fin 1)) ⟨List.idxOf (⟨1, by decide⟩ : Fin SX.rank) (rowPickDims wf).startIndexMap,
        List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-- A left fold by `and` from the bit 1 over bits that are all 1 stays 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons.2 (Or.inl rfl)), show IntOp.andi 1#1 1#1 = 1#1 from by decide]
    exact foldl_andi_one f l fun n hn => h n (List.mem_cons.2 (Or.inr hn))

/-- A reduce by `and` from the bit 1 of an array of bits that are all 1 is 1 everywhere. -/
theorem reduce_andi_ones {s t : Shape} {axes : List (Fin s.rank)} (p : IVec s 1) (hp : ∀ i, p i = 1#1)
    (h : s.ReducesTo axes t) (hS : 0 < S0.numel) (j : t.Idx) :
    Host.reduce IntOp.andi p (constantI S0 1 1#1) h hS j = 1#1 := by
  rw [Host.reduce_eq_foldl]
  exact foldl_andi_one _ _ (fun i _ => hp i)

variable {F : FTy → Type} [FloatOps F]

/-- The column numbers wrapped and recast with a trailing unit axis: the gather's start indices. -/
def startIdx (hb1 : S0.BroadcastsInDim SC (![] : Fin 0 → Fin SC.rank)) (hsc : SC.ShapeCasts SC3) (L : IVec SC 32) : IVec SC3 32 :=
  shapeCast _ (select (cmpi .slt L (broadcastInDim SC ![] hb1 (constantI S0 32 0#32)))
    (addi L (broadcastInDim SC ![] hb1 (constantI S0 32 32000#32))) L) hsc

/-- A nonnegative column number is not wrapped: the start index at (r, 0, 0) is the column number at (r, 0). -/
theorem startIdx_apply (hb1 : S0.BroadcastsInDim SC (![] : Fin 0 → Fin SC.rank)) (hsc : SC.ShapeCasts SC3) (L : IVec SC 32)
    (a : Fin 4096) (h0 : IntOp.cmpi .sge (L (ix2 a (0 : Fin 1))) 0#32 = 1#1) :
    startIdx hb1 hsc L (ix3 a (0 : Fin 1) (0 : Fin 1)) = L (ix2 a (0 : Fin 1)) := by
  unfold startIdx
  -- the recast keeps the row-major position: (a, 0, 0) reads (a, 0)
  rw [shapeCast_apply _ hsc (ix3 a (0 : Fin 1) (0 : Fin 1)) (ix2 a (0 : Fin 1))
    (by rewrite [Shape.rowMajor_val_two, Shape.rowMajor_val_three]
        show a.val * 1 + 0 = (a.val * 1 + 0) * 1 + 0
        omega)]
  rw [select_apply]
  -- 0 ≤ w read signed, so "w < 0" is the bit 0 and the select keeps w
  have hslt : cmpi .slt L (broadcastInDim SC ![] hb1 (constantI S0 32 0#32)) (ix2 a (0 : Fin 1)) = 0#1 := by
    show IntOp.cmpi .slt (L (ix2 a (0 : Fin 1))) 0#32 = 0#1
    refine eq_zero_of_ne_one fun h => ?_
    rw [IntOp.cmpi_slt] at h
    rw [IntOp.cmpi_sge] at h0
    omega
  rw [hslt, select_zero]

/-- Under in-range column numbers every bit of the mask's operand is 1. -/
theorem maskBits_apply (hb1 : S0.BroadcastsInDim SC (![] : Fin 0 → Fin SC.rank)) (hb2 : S0.BroadcastsInDim SC3 (![] : Fin 0 → Fin SC3.rank))
    (hb3 : S1.BroadcastsInDim S111 (![2] : Fin 1 → Fin S111.rank)) (hb4 : S111.BroadcastsInDim SC3 (![0, 1, 2] : Fin 3 → Fin SC3.rank))
    (hsc : SC.ShapeCasts SC3) (L : IVec SC 32)
    (hL : ∀ r : Fin 4096, IntOp.cmpi .sge (L (ix2 r (0 : Fin 1))) 0#32 = 1#1 ∧ IntOp.cmpi .sle (L (ix2 r (0 : Fin 1))) 31999#32 = 1#1)
    (i : SC3.Idx) :
    andi (cmpi .sge (startIdx hb1 hsc L) (broadcastInDim SC3 ![] hb2 (constantI S0 32 0#32)))
      (cmpi .sle (startIdx hb1 hsc L) (broadcastInDim SC3 ![0, 1, 2] hb4 (broadcastInDim S111 ![2] hb3 (constantI S1 32 31999#32)))) i
      = 1#1 := by
  obtain ⟨a, b, c, rfl⟩ : ∃ a b c, i = ix3 a b c := ⟨_, _, _, eq_ix3 i⟩
  obtain rfl : b = 0 := Subsingleton.elim _ _
  obtain rfl : c = 0 := Subsingleton.elim _ _
  show IntOp.andi (IntOp.cmpi .sge (startIdx hb1 hsc L (ix3 a (0 : Fin 1) (0 : Fin 1))) 0#32)
    (IntOp.cmpi .sle (startIdx hb1 hsc L (ix3 a (0 : Fin 1) (0 : Fin 1))) 31999#32) = 1#1
  rw [startIdx_apply hb1 hsc L a (hL a).1, (hL a).1, (hL a).2]
  decide

/-- The whole stage, in the order it is lowered: mask, gather, fill, select. -/
def taa (hb1 : S0.BroadcastsInDim SC (![] : Fin 0 → Fin SC.rank)) (hb2 : S0.BroadcastsInDim SC3 (![] : Fin 0 → Fin SC3.rank))
    (hb3 : S1.BroadcastsInDim S111 (![2] : Fin 1 → Fin S111.rank)) (hb4 : S111.BroadcastsInDim SC3 (![0, 1, 2] : Fin 3 → Fin SC3.rank))
    (hsc : SC.ShapeCasts SC3) (hred : SC3.ReducesTo [2] SC) (hS : 0 < S0.numel)
    (wf : GatherDims.WF SX SC3 SC [] [1] [0] [1] [0] 2 ![1, 1])
    (X : FVec F SX .f32) (L : IVec SC 32) : FVec F SC .f32 :=
  select
    (Host.reduce IntOp.andi
      (andi (cmpi .sge (startIdx hb1 hsc L) (broadcastInDim SC3 ![] hb2 (constantI S0 32 0#32)))
        (cmpi .sle (startIdx hb1 hsc L) (broadcastInDim SC3 ![0, 1, 2] hb4 (broadcastInDim S111 ![2] hb3 (constantI S1 32 31999#32)))))
      (constantI S0 1 1#1) hred hS)
    (Host.gather (rowPickDims wf) X (startIdx hb1 hsc L))
    (broadcastInDim SC ![] hb1 (constant S0 .f32 0x7FC00000#32))

/-- THE STAGE UNDER IN-RANGE COLUMN NUMBERS: entry (r, 0) is the table's entry in row r at that row's column. -/
theorem taa_apply (hb1 : S0.BroadcastsInDim SC (![] : Fin 0 → Fin SC.rank)) (hb2 : S0.BroadcastsInDim SC3 (![] : Fin 0 → Fin SC3.rank))
    (hb3 : S1.BroadcastsInDim S111 (![2] : Fin 1 → Fin S111.rank)) (hb4 : S111.BroadcastsInDim SC3 (![0, 1, 2] : Fin 3 → Fin SC3.rank))
    (hsc : SC.ShapeCasts SC3) (hred : SC3.ReducesTo [2] SC) (hS : 0 < S0.numel)
    (wf : GatherDims.WF SX SC3 SC [] [1] [0] [1] [0] 2 ![1, 1])
    (X : FVec F SX .f32) (L : IVec SC 32)
    (hL : ∀ r : Fin 4096, IntOp.cmpi .sge (L (ix2 r (0 : Fin 1))) 0#32 = 1#1 ∧ IntOp.cmpi .sle (L (ix2 r (0 : Fin 1))) 31999#32 = 1#1)
    (r : Fin 4096) :
    taa hb1 hb2 hb3 hb4 hsc hred hS wf X L (ix2 r (0 : Fin 1)) = X (ix2 r (colOf (L (ix2 r (0 : Fin 1))))) := by
  unfold taa
  -- the mask is 1 at (r, 0), so the select keeps the gathered entry; its start index is the column number itself
  rw [select_apply, reduce_andi_ones _ (maskBits_apply hb1 hb2 hb3 hb4 hsc L hL) hred hS, select_one, rowPick_apply,
    startIdx_apply hb1 hsc L r (hL r).1]

end Cert.TakeAlong

end
-- ==== Proof.KernelHost.lean ====
import proofs.«125217_j81741817577604_2_alg».proof.Defs
import proofs.«125217_j81741817577604_2_alg».proof.Proof.Gen.KernelIdeal.Frame
import proofs.«125217_j81741817577604_2_alg».proof.Proof.LibTakeAlong
import proofs.«125217_j81741817577604_2_alg».proof.Proof.LibKeepdims
import Idealize.ShloMosaic.Lib.StableHlo.Run
import Idealize.ShloMosaic.PureOps.Ideal.Laws
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Host

open Cert.KernelIdeal Cert.KernelIdeal.Gen

/-! The host operations around the kernel's region. Before it: the labels are recast as a column and the target logit
    of each row is picked from the logits (the take-along-axis stage), which is the array the region's second window
    reads. After it: the region's output column is summed from 0 and divided by the f32 word of 4096. -/

open Idealize.ShloMosaic.ValueIdx Cert.TakeAlong

variable {F : FTy → Type} [FloatOps F]
variable (m : (ℓ : Loc nD τ sig) → Buf (Elt F) ℓ)

/-- BEFORE THE REGION: the array window 1 stages is the take-along-axis stage of the logits at the labels recast as a
    column. -/
theorem V_target (c : Dev nD) :
    (V m c main_v1 : S4096x1.Idx → Elt F .f32)
      = taa Facts₀.bcast_S_S4096x1 Facts₀.bcast_S_S4096x1x1 Facts₀.bcast_S1_S1x1x1_2 Facts₀.bcast_S1x1x1_S4096x1x1_0_1_2
          Facts₀.shapeCasts_S4096x1_S4096x1x1 Facts₀.reducesTo_S4096x1x1_S4096x1_d2 Facts₀.h_S_
          Facts₀.gather_S4096x32000_S4096x1x1_S4096x1_n_1_0_0_1_2_11_wf
          (m ((c : Thread nD τ).loc main_arg0))
          (shapeCast S4096x1 (m ((c : Thread nD τ).loc main_arg1)) Facts₀.shapeCasts_S4096_S4096x1) := by
  dsimp only [V, V0]
  simp only [hostOps0, hostOps0_1, List.flatten_cons, List.flatten_nil, List.append_nil, List.cons_append, List.nil_append]
  after_results_simp
  rfl

/-- AFTER THE REGION, at the extended reals: the result is the output column summed from 0 and divided by the f32 word of
    4096, whatever the column holds. -/
theorem tail_value (m : (ℓ : Loc nD τ sig) → Buf (Elt Ideal) ℓ) (c : Dev nD) (G : S4096x1.Idx → EReal)
    (hG : (dats (F := Ideal) m 0 c).arrAt 2 cfg0.N = G) :
    (Pipeline.afterTail₀ cfgs (dats (F := Ideal) m) 0 (V0 m) [hostOps1] c main_v4 : S_.Idx → EReal)
      = fun _ => Ideal.div (0 + ∑ r : Fin 4096, G (ix2 r (0 : Fin 1))) (Ideal.ofBits .f32 0x45800000#32) := by
  unfold Pipeline.afterTail₀
  show StableHlo.after hostOps1 _ (Proc.devRef .tc main_v4) = _
  after_results
  -- the array the tail sums is the region's output, G
  rw [(Pipeline.withArrays_arr spec0 launch0.win.arr_inj c _ _ 2).trans hG]
  funext j
  show Ideal.div (Ideal.hostReduceAdd reducesTo_S4096x1_S_d0_1 G (Ideal.ofBits .f32 0x00000000#32) j)
    (Ideal.ofBits .f32 0x45800000#32) = _
  -- a sum over every axis is the initial value plus the sum over all indices; the column's indices are (r, 0)
  rw [Ideal.hostReduceAdd_total reducesTo_S4096x1_S_d0_1 (fun b => b.elim0), Ideal.ofBits_zero_f32, sum_idx2]
  simp only [Fin.sum_univ_one]

end Cert.KernelIdeal.Host

end
-- ==== Proof.Spec.lean ====
/-
  The cross-entropy both programs compute, as one function of the logits and of one column per row, on the extended
  reals. For row r with entries x_0 … x_31999 and target column c:
      M = max_j x_j,   S = Σ_j exp (x_j − M),   loss_r = −log (exp (x_c − M) / S + ε),
  and the result is (0 + Σ_r loss_r) / 4096. The constant ε and the divisor are the programs' own f32 words, the same
  on both sides, so they are kept as words and never evaluated.
-/
import proofs.«125217_j81741817577604_2_alg».proof.Proof.LibSoftmaxRow
import Idealize.ShloMosaic.Lib.ValueIdx

noncomputable section

open scoped BigOperators

namespace Cert.Xent

open Idealize.ShloMosaic Idealize.ShloMosaic.ValueIdx Cert.Softmax

abbrev SX : Shape := ⟨2, ![4096, 32000]⟩

/-- Row r of the logits. -/
def row (X : SX.Idx → EReal) (r : Fin 4096) : Fin 32000 → EReal := fun j => X (ix2 r j)

/-- The small constant added under the logarithm: the f32 word both programs carry. -/
def eps : EReal := Ideal.ofBits .f32 0x2B8CBCCC#32

/-- One row's loss at target column c r. -/
def lossRow (X : SX.Idx → EReal) (cc : Fin 4096 → Fin 32000) (r : Fin 4096) : EReal :=
  -(Ideal.log (Ideal.div (Ideal.exp (X (ix2 r (cc r)) - rowMax (row X r))) (tot (row X r)) + eps))

/-- The mean loss: the sum over the rows, from 0, divided by the f32 word of 4096. -/
def meanLoss (X : SX.Idx → EReal) (cc : Fin 4096 → Fin 32000) : EReal :=
  Ideal.div (0 + ∑ r : Fin 4096, lossRow X cc r) (Ideal.ofBits .f32 0x45800000#32)

end Cert.Xent

end
-- ==== Proof.KernelValue.lean ====
import proofs.«125217_j81741817577604_2_alg».proof.Defs
import proofs.«125217_j81741817577604_2_alg».proof.Proof.Gen.KernelIdeal.Frame
import proofs.«125217_j81741817577604_2_alg».proof.Proof.KernelFinal
import proofs.«125217_j81741817577604_2_alg».proof.Proof.KernelHost
import proofs.«125217_j81741817577604_2_alg».proof.Proof.Spec
import proofs.«125217_j81741817577604_2_alg».proof.Proof.LibOnlineSoftmax
import proofs.«125217_j81741817577604_2_alg».proof.Proof.LibTakeAlong
import proofs.«125217_j81741817577604_2_alg».proof.Proof.LibKeepdims
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

/-! The idealized kernel's result is the mean loss. The output column holds, at row r, 0 − log (exp (t − m) / s + ε)
    with t the target logit the take-along-axis stage picked and (m, s) the online pair after the row's five tiles.
    For real logits the online pair is the row's maximum and its sum of shifted exponentials; for labels within
    0 … 31999 the picked entry is the logit at the label's column; and 0 − y = −y. The host tail sums the column from
    0 and divides by the f32 word of 4096. -/

open Idealize.ShloMosaic.ValueIdx Cert.Algebra Cert.Softmax Cert.OnlineSoftmax Cert.TakeAlong Cert.Xent
open Cert.KernelIdeal.Invariant Cert.KernelIdeal.Final Cert.KernelIdeal.Host

variable (m : (ℓ : Loc nD τ sig) → Buf (Elt Ideal) ℓ) (ρ : Dev nD → PrngReg)

/-- ONE ROW of the output column, for real logits and labels within 0 … 31999: the loss from the target logit the stage
    before the region picked and the online pair after the row's five tiles is the row's loss at the label's column. -/
theorem row_value (c : Dev nD)
    (hX : ∀ i, IsReal (m ((c : Thread nD τ).loc main_arg0) i : EReal))
    (hL : ∀ r : Fin 4096, IntOp.cmpi .sge (m ((c : Thread nD τ).loc main_arg1) (ix1 r)) 0#32 = 1#1
      ∧ IntOp.cmpi .sle (m ((c : Thread nD τ).loc main_arg1) (ix1 r)) 31999#32 = 1#1)
    (r : Fin 4096) :
    lossOf (V m c main_v1 (ix2 r (0 : Fin 1))) (onl (tiles (V m c main_arg0) r) 4).1 (onl (tiles (V m c main_arg0) r) 4).2
      = lossRow (m ((c : Thread nD τ).loc main_arg0)) (fun r => colOf (m ((c : Thread nD τ).loc main_arg1) (ix1 r))) r := by
  -- the logits as the region finds them are the launch contents
  rw [V_main_arg0 m c]
  -- the online pair after the five tiles of a real row is the row's maximum and its sum of shifted exponentials
  have honl := onl_flat (W := 6400) 5 32000 (by decide) (by decide) (by decide)
    (row (m ((c : Thread nD τ).loc main_arg0)) r) (fun j => hX _)
    (tiles (m ((c : Thread nD τ).loc main_arg0)) r) (fun k hk q => by unfold tiles; rw [dif_pos hk]; rfl)
  have h1 : (onl (tiles (m ((c : Thread nD τ).loc main_arg0)) r) 4).1 = rowMax (row (m ((c : Thread nD τ).loc main_arg0)) r) := honl.1
  have h2 : (onl (tiles (m ((c : Thread nD τ).loc main_arg0)) r) 4).2 = tot (row (m ((c : Thread nD τ).loc main_arg0)) r) := honl.2
  rw [h1, h2]
  -- the labels recast as a column read, at (r, 0), the label of row r; so the stage picks the logit at that column
  have hLr : ∀ a : Fin 4096,
      shapeCast S4096x1 (m ((c : Thread nD τ).loc main_arg1)) Facts₀.shapeCasts_S4096_S4096x1 (ix2 a (0 : Fin 1))
        = m ((c : Thread nD τ).loc main_arg1) (ix1 a) :=
    fun a => shapeCast_a_a1_apply (m ((c : Thread nD τ).loc main_arg1)) Facts₀.shapeCasts_S4096_S4096x1 a 0
  have ht : V m c main_v1 (ix2 r (0 : Fin 1))
      = m ((c : Thread nD τ).loc main_arg0) (ix2 r (colOf (m ((c : Thread nD τ).loc main_arg1) (ix1 r)))) := by
    rw [V_target (F := Ideal) m c,
      taa_apply (F := Ideal) Facts₀.bcast_S_S4096x1 Facts₀.bcast_S_S4096x1x1 Facts₀.bcast_S1_S1x1x1_2 Facts₀.bcast_S1x1x1_S4096x1x1_0_1_2
        Facts₀.shapeCasts_S4096x1_S4096x1x1 Facts₀.reducesTo_S4096x1x1_S4096x1_d2 Facts₀.h_S_
        Facts₀.gather_S4096x32000_S4096x1x1_S4096x1_n_1_0_0_1_2_11_wf
        (m ((c : Thread nD τ).loc main_arg0))
        (shapeCast S4096x1 (m ((c : Thread nD τ).loc main_arg1)) Facts₀.shapeCasts_S4096_S4096x1)
        (fun a => by rw [hLr a]; exact hL a) r,
      hLr r]
  rw [ht]
  -- 0 − y = −y
  unfold lossOf lossRow eps
  rw [zero_sub]

/-- THE KERNEL'S RESULT, for real logits and labels within 0 … 31999. -/
theorem kernel_value (c : Dev nD)
    (hX : ∀ i, IsReal (m ((c : Thread nD τ).loc main_arg0) i : EReal))
    (hL : ∀ r : Fin 4096, IntOp.cmpi .sge (m ((c : Thread nD τ).loc main_arg1) (ix1 r)) 0#32 = 1#1
      ∧ IntOp.cmpi .sle (m ((c : Thread nD τ).loc main_arg1) (ix1 r)) 31999#32 = 1#1) :
    (Pipeline.afterTail₀ cfgs (dats (F := Ideal) m) 0 (V0 m) [hostOps1] c main_v4 : S_.Idx → EReal)
      = fun _ => meanLoss (m ((c : Thread nD τ).loc main_arg0)) (fun r => colOf (m ((c : Thread nD τ).loc main_arg1) (ix1 r))) := by
  -- the tail sums the output column from 0 and divides by the word of 4096; the column is the loss column
  rw [tail_value m c (lossCol m c) (final m c)]
  unfold meanLoss
  funext _
  -- row by row, the loss column's entry is the row's loss
  rw [Finset.sum_congr rfl fun r _ => (lossCol_at m c r).trans (row_value m c hX hL r)]

/-- THE RUN, READ: the result at the mean loss, the arguments unchanged. -/
theorem run
    (hX : ∀ (c : Dev nD) i, IsReal (m ((c : Thread nD τ).loc main_arg0) i : EReal))
    (hL : ∀ (c : Dev nD) (r : Fin 4096), IntOp.cmpi .sge (m ((c : Thread nD τ).loc main_arg1) (ix1 r)) 0#32 = 1#1
      ∧ IntOp.cmpi .sle (m ((c : Thread nD τ).loc main_arg1) (ix1 r)) 31999#32 = 1#1) :
    θ_run defs (onTc (τ := τ) (main (F := Ideal))) ⟨m, fun _ => 0, ρ⟩ fun r => ∀ c : Dev nD,
      r.2.mem ((c : Thread nD τ).loc main_v4)
          = (fun _ => meanLoss (m ((c : Thread nD τ).loc main_arg0)) (fun r => colOf (m ((c : Thread nD τ).loc main_arg1) (ix1 r))))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v4 (Pipeline.mem_restRefs_of main_v4 (by decide) (by decide))).trans (kernel_value m c (hX c) (hL c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.LibBroadcastInDim.lean ====
/-
  The host's broadcast_in_dim in the five small forms a row-wise normalisation uses, each read at an index given by
  coordinates: a scalar to any shape; a vector of length a to an a x 1 column; an a x 1 column to a x b; a vector of
  length b to a 1 x b row; a 1 x b row to a x b. In each the result's entry is the operand's entry at the coordinates
  the broadcast keeps.
-/
import Idealize.ShloMosaic.Lib.Pipeline.Value
import Idealize.ShloMosaic.Lib.ValueIdx

namespace Idealize.ShloMosaic.ValueIdx

open Idealize.ShloMosaic

variable {α : Type}

/-- A scalar broadcast to any shape reads the scalar everywhere. -/
theorem broadcastInDim_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- A vector of length a placed as an a x 1 column reads, at (r, u), the vector at r. -/
theorem broadcastInDim_vec_col_apply {a : ℕ} (h : (⟨1, ![a]⟩ : Shape).BroadcastsInDim (⟨2, ![a, 1]⟩ : Shape) ![0])
    (x : (⟨1, ![a]⟩ : Shape).Idx → α) (r : Fin a) (u : Fin 1) :
    broadcastInDim (⟨2, ![a, 1]⟩ : Shape) ![0] h x (ix2 r u) = x (ix1 r) := by
  refine broadcastInDim_apply ![0] h x (ix2 r u) (ix1 r) fun ax => ?_
  match ax with
  | ⟨0, _⟩ =>
    show r.val = if a = 1 then 0 else r.val
    split
    · have := r.isLt; omega
    · rfl

/-- An a x 1 column broadcast to a x b reads, at (r, c), the column at (r, 0). -/
theorem broadcastInDim_col_mat_apply {a b : ℕ} (h : (⟨2, ![a, 1]⟩ : Shape).BroadcastsInDim (⟨2, ![a, b]⟩ : Shape) ![0, 1])
    (x : (⟨2, ![a, 1]⟩ : Shape).Idx → α) (r : Fin a) (c : Fin b) :
    broadcastInDim (⟨2, ![a, b]⟩ : Shape) ![0, 1] h x (ix2 r c) = x (ix2 r (0 : Fin 1)) := by
  refine broadcastInDim_apply ![0, 1] h x (ix2 r c) (ix2 r (0 : Fin 1)) fun ax => ?_
  match ax with
  | ⟨0, _⟩ =>
    show r.val = if a = 1 then 0 else r.val
    split
    · have := r.isLt; omega
    · rfl
  | ⟨1, _⟩ => rfl

/-- A vector of length b placed as a 1 x b row reads, at (u, c), the vector at c. -/
theorem broadcastInDim_vec_row_apply {b : ℕ} (h : (⟨1, ![b]⟩ : Shape).BroadcastsInDim (⟨2, ![1, b]⟩ : Shape) ![1])
    (x : (⟨1, ![b]⟩ : Shape).Idx → α) (u : Fin 1) (c : Fin b) :
    broadcastInDim (⟨2, ![1, b]⟩ : Shape) ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- A 1 x b row broadcast to a x b reads, at (r, c), the row at (0, c). -/
theorem broadcastInDim_row_mat_apply {a b : ℕ} (h : (⟨2, ![1, b]⟩ : Shape).BroadcastsInDim (⟨2, ![a, b]⟩ : Shape) ![0, 1])
    (x : (⟨2, ![1, b]⟩ : Shape).Idx → α) (r : Fin a) (c : Fin b) :
    broadcastInDim (⟨2, ![a, b]⟩ : Shape) ![0, 1] h x (ix2 r c) = x (ix2 (0 : Fin 1) c) := by
  refine broadcastInDim_apply ![0, 1] h x (ix2 r c) (ix2 (0 : Fin 1) c) fun ax => ?_
  match ax with
  | ⟨0, _⟩ => rfl
  | ⟨1, _⟩ =>
    show c.val = if b = 1 then 0 else c.val
    split
    · have := c.isLt; omega
    · rfl

end Idealize.ShloMosaic.ValueIdx
-- ==== Proof.RefValue.lean ====
/-
  The reference's result is the mean loss: its softmax row, shifted twice (by the row maximum, then by the maximum of
  the shifted row, which is 0 for real entries), divided by its total, picked at the label's column, is
  exp (x_c − M) / S; then −log (· + ε), summed over the rows from 0 and divided by 4096.
-/
import proofs.«125217_j81741817577604_2_alg».proof.Proof.Gen.ReferenceIdeal.Read
import proofs.«125217_j81741817577604_2_alg».proof.Proof.Spec
import proofs.«125217_j81741817577604_2_alg».proof.Proof.LibOnlineSoftmax
import proofs.«125217_j81741817577604_2_alg».proof.Proof.LibTakeAlong
import proofs.«125217_j81741817577604_2_alg».proof.Proof.LibRowReduce
import proofs.«125217_j81741817577604_2_alg».proof.Proof.LibBroadcastInDim

noncomputable section

open scoped BigOperators

namespace Cert.ReferenceIdeal.RefValue

open Idealize.ShloMosaic Idealize.ShloMosaic.ValueIdx Cert.ReferenceIdeal Cert.ReferenceIdeal.Read
open Cert.Algebra Cert.Softmax Cert.OnlineSoftmax Cert.TakeAlong Cert.Xent Cert.ReferenceIdeal.Gen

/-! ## Indices -/

/-- The reduction of a 4096 x 32000 array along its rows, as the library's single-axis relation. -/
theorem reduces_rows : (⟨2, ![4096, 32000]⟩ : Shape).Reduces [1] (⟨1, ![4096]⟩ : Shape) := by decide

/-- A rank-1 index is its one coordinate. -/
def idxEquiv1 {n : ℕ} : Fin n ≃ (⟨1, ![n]⟩ : Shape).Idx where
  toFun := ix1
  invFun j := j 0
  left_inv _ := rfl
  right_inv j := (eq_ix1 j).symm

/-- A vector of 4096 entries kept as a column and spread over the 32000 columns reads, at (r, c), the vector at r. -/
theorem bcast2_at {α : Type} (y : S4096.Idx → α) (r : Fin 4096) (c : Fin 32000) :
    broadcastInDim S4096x32000 ![0, 1] bcast_S4096x1_S4096x32000_0_1
      (broadcastInDim S4096x1 ![0] bcast_S4096_S4096x1_0 y) (ix2 r c) = y (ix1 r) :=
  (broadcastInDim_col_mat_apply bcast_S4096x1_S4096x32000_0_1 _ r c).trans
    (broadcastInDim_vec_col_apply bcast_S4096_S4096x1_0 y r 0)

variable (X : (⟨S4096x32000, .f32⟩ : BufTy).Contents (Elt Ideal)) (lbl : (⟨S4096, .i32⟩ : BufTy).Contents (Elt Ideal))

/-! ## The softmax row -/

/-- The first reduction is the row maximum M. -/
theorem v0_at (r : Fin 4096) : val_main_v0 (F := Ideal) X (ix1 r) = rowMax (row X r) := by
  unfold val_main_v0
  rw [hostReduce_max_row reducesTo_S4096x32000_S4096_d1 reduces_rows X _ h_S_ r]
  show Finset.fold max (Ideal.ofBits .f32 0xFF800000#32) _ _ = _
  rw [negInf_f32]
  rfl

/-- The first shift: x − M. -/
theorem v3_at (r : Fin 4096) (j : Fin 32000) :
    val_main_v3 (F := Ideal) X (ix2 r j) = row X r j - rowMax (row X r) := by
  show X (ix2 r j) - val_main_v2 (F := Ideal) X (ix2 r j) = _
  rw [show val_main_v2 (F := Ideal) X (ix2 r j) = val_main_v0 (F := Ideal) X (ix1 r) from bcast2_at _ r j, v0_at]
  rfl

/-- The maximum of the shifted row is 0 when the row is real. -/
theorem v4_at (hX : ∀ i, IsReal (X i : EReal)) (r : Fin 4096) : val_main_v4 (F := Ideal) X (ix1 r) = 0 := by
  unfold val_main_v4
  rw [hostReduce_max_row reducesTo_S4096x32000_S4096_d1 reduces_rows _ _ h_S_ r]
  show Finset.fold max (Ideal.ofBits .f32 0xFF800000#32) (fun j => val_main_v3 (F := Ideal) X (ix2 r j)) Finset.univ = 0
  rw [negInf_f32, funext (v3_at X r)]
  exact rowMax_shift (row X r) (fun j => hX (ix2 r j))

/-- So the second shift subtracts max (−∞) 0 = 0. -/
theorem v8_at (hX : ∀ i, IsReal (X i : EReal)) (r : Fin 4096) (c : Fin 32000) :
    val_main_v8 (F := Ideal) X (ix2 r c) = 0 := by
  unfold val_main_v8 val_main_v7
  rw [bcast2_at, val_main_v6_apply, Ideal.maximumf_def, v4_at X hX r]
  unfold val_main_v5
  rw [broadcastInDim_scalar_apply, val_main_cst_1_apply, Ideal.ofBits_def, negInf_f32]
  exact max_eq_right bot_le

/-- The exponentials are exp (x − M). -/
theorem v10_at (hX : ∀ i, IsReal (X i : EReal)) (r : Fin 4096) (j : Fin 32000) :
    val_main_v10 (F := Ideal) X (ix2 r j) = ex (row X r) j := by
  rw [val_main_v10_apply, Ideal.hostUnary_exp_def, val_main_v9_apply, Ideal.subf_def, v3_at, v8_at X hX, sub_zero]
  unfold ex
  rfl

/-- Their sum from 0 is the row's total S. -/
theorem v11_at (hX : ∀ i, IsReal (X i : EReal)) (r : Fin 4096) :
    val_main_v11 (F := Ideal) X (ix1 r) = tot (row X r) := by
  rw [val_main_v11_apply, val_main_cst_2_apply, Ideal.ofBits_def, Ideal.ofBits_zero_f32, zero_add]
  unfold tot
  refine Finset.sum_congr rfl fun k _ => ?_
  rw [show idx_main_v11 (ix1 r) k = ix2 r k from funext fun a => by
    match a with
    | ⟨0, _⟩ => rfl
    | ⟨1, _⟩ => rfl]
  exact v10_at X hX r k

/-- The normalised row: exp (x − M) / S. -/
theorem v14_at (hX : ∀ i, IsReal (X i : EReal)) (r : Fin 4096) (j : Fin 32000) :
    val_main_v14 (F := Ideal) X (ix2 r j) = Ideal.div (ex (row X r) j) (tot (row X r)) := by
  rw [val_main_v14_apply, Ideal.hostDivf_def, v10_at X hX, show val_main_v13 (F := Ideal) X (ix2 r j) = val_main_v11 (F := Ideal) X (ix1 r) from bcast2_at _ r j,
    v11_at X hX]

/-! ## The picked entry -/

/-- The call of take_along_axis is the library's stage on the normalised rows and the labels kept as a column. -/
theorem v16_eq : val_main_v16 (F := Ideal) X lbl
    = taa (F := Ideal) bcast_S_S4096x1 bcast_S_S4096x1x1 bcast_S1_S1x1x1_2 bcast_S1x1x1_S4096x1x1_0_1_2 shapeCasts_S4096x1_S4096x1x1
        reducesTo_S4096x1x1_S4096x1_d2 h_S_ gather_S4096x32000_S4096x1x1_S4096x1_n_1_0_0_1_2_11_wf
        (val_main_v14 (F := Ideal) X) (val_main_v15 (F := Ideal) lbl) := rfl

/-- Under in-range labels the picked entry of row r is the normalised row at the label's column. -/
theorem v17_at (hL : ∀ r : Fin 4096, IntOp.cmpi .sge (lbl (ix1 r)) 0#32 = 1#1 ∧ IntOp.cmpi .sle (lbl (ix1 r)) 31999#32 = 1#1)
    (r : Fin 4096) :
    val_main_v17 (F := Ideal) X lbl (ix1 r) = val_main_v14 (F := Ideal) X (ix2 r (colOf (lbl (ix1 r)))) := by
  have h15 : ∀ a : Fin 4096, val_main_v15 (F := Ideal) lbl (ix2 a (0 : Fin 1)) = lbl (ix1 a) := fun a => by
    unfold val_main_v15
    exact broadcastInDim_vec_col_apply bcast_S4096_S4096x1_0 lbl a 0
  unfold val_main_v17
  rw [shapeCast_apply _ shapeCasts_S4096x1_S4096 (ix1 r) (ix2 r (0 : Fin 1)) (by
    rewrite [Shape.rowMajor_val_two, Shape.rowMajor_val_one]
    show r.val * 1 + 0 = r.val
    omega)]
  rw [v16_eq, taa_apply _ _ _ _ _ _ _ _ _ _ (fun a => by rw [h15]; exact hL a) r, h15]

/-! ## The loss -/

/-- One row's −log (p + ε) is the row's loss. -/
theorem v21_at (hX : ∀ i, IsReal (X i : EReal))
    (hL : ∀ r : Fin 4096, IntOp.cmpi .sge (lbl (ix1 r)) 0#32 = 1#1 ∧ IntOp.cmpi .sle (lbl (ix1 r)) 31999#32 = 1#1)
    (r : Fin 4096) :
    val_main_v21 (F := Ideal) X lbl (ix1 r) = lossRow X (fun r => colOf (lbl (ix1 r))) r := by
  have h18 : val_main_v18 (F := Ideal) (ix1 r) = eps := by
    unfold val_main_v18
    rw [broadcastInDim_scalar_apply, val_main_cst_3_apply, Ideal.ofBits_def]
    unfold eps
    rfl
  rw [val_main_v21_apply, Ideal.hostNegf_def, Ideal.negf_def, val_main_v20_apply, Ideal.hostUnary_log_def, val_main_v19_apply,
    Ideal.addf_def, v17_at X lbl hL r, v14_at X hX, h18]
  simp only [lossRow, ex, row]

/-- The sum over the rows from 0. -/
theorem v22_at (hX : ∀ i, IsReal (X i : EReal))
    (hL : ∀ r : Fin 4096, IntOp.cmpi .sge (lbl (ix1 r)) 0#32 = 1#1 ∧ IntOp.cmpi .sle (lbl (ix1 r)) 31999#32 = 1#1)
    (i : S_.Idx) :
    val_main_v22 (F := Ideal) X lbl i = 0 + ∑ r : Fin 4096, lossRow X (fun r => colOf (lbl (ix1 r))) r := by
  rw [val_main_v22_apply, val_main_cst_4_apply, Ideal.ofBits_def, Ideal.ofBits_zero_f32, ← Equiv.sum_comp (idxEquiv1 (n := 4096)) (val_main_v21 (F := Ideal) X lbl)]
  exact congrArg (0 + ·) (Finset.sum_congr rfl fun r _ => v21_at X lbl hX hL r)

/-- THE REFERENCE IS THE MEAN LOSS, for real logits and labels within 0 … 31999; the target column of row r is the
    label word read signed and clamped (for in-range labels: the label itself). -/
theorem ref_value (X : (⟨S4096x32000, .f32⟩ : BufTy).Contents (Elt Ideal)) (lbl : (⟨S4096, .i32⟩ : BufTy).Contents (Elt Ideal))
    (hX : ∀ i, IsReal (X i : EReal))
    (hL : ∀ r : Fin 4096, IntOp.cmpi .sge (lbl (ix1 r)) 0#32 = 1#1 ∧ IntOp.cmpi .sle (lbl (ix1 r)) 31999#32 = 1#1) :
    val_main_v23 (F := Ideal) X lbl = fun _ => meanLoss X (fun r => colOf (lbl (ix1 r))) := by
  funext i
  rw [val_main_v23_apply, Ideal.hostDivf_def, v22_at X lbl hX hL i, val_main_cst_5_apply, Ideal.ofBits_def]
  unfold meanLoss
  rfl

end Cert.ReferenceIdeal.RefValue

end
-- ==== Proof.lean ====
/-
  The cross-entropy kernel against its jnp reference, on the extended reals.

  Both programs compute, for logits x (4096 rows, 32000 columns) and one label per row, the mean over the rows of
      −log (exp (x[r, c_r] − M_r) / S_r + ε),   M_r = max_j x[r, j],   S_r = Σ_j exp (x[r, j] − M_r).
  The kernel meets each row in five tiles of 6400 columns and keeps a running maximum and a running sum of shifted
  exponentials, rescaling the sum whenever the maximum grows; for real logits the running pair ends at (M_r, S_r)
  (the rescaling law exp (a − b) · exp (b − c) = exp (a − c) needs real numbers, which is where finiteness of the
  logits is used). The reference shifts each row by its maximum, then once more by the maximum of the shifted row,
  which is 0 for real entries. Both pick the target entry with the same take-along-axis stage — the kernel from the
  logits before the exponential, the reference from the quotients after it — and for labels within 0 … 31999 that
  stage reads the table at the label's column, so the two picks agree: exp (x[r, c] − M) / S either way. Outside that
  range the stage answers its fill value on both sides, but at different places of the formula, which is why the
  labels are asked to be in range. The last steps — add ε, logarithm, negate (0 − y in the kernel), sum from 0,
  divide by 4096 — are the same operations of the same words on both sides.

  The frames of the two kernel programs are the generated ones; the reference's frame is its generated run with the
  result dropped; the idealization rewrote nothing.
-/
import proofs.«125217_j81741817577604_2_alg».proof.Defs
import proofs.«125217_j81741817577604_2_alg».proof.Proof.Gen.Kernel
import proofs.«125217_j81741817577604_2_alg».proof.Proof.Gen.Kernel.Skeleton
import proofs.«125217_j81741817577604_2_alg».proof.Proof.Gen.Kernel.Launch
import proofs.«125217_j81741817577604_2_alg».proof.Proof.Gen.Kernel.Points
import proofs.«125217_j81741817577604_2_alg».proof.Proof.Gen.Kernel.Frame
import proofs.«125217_j81741817577604_2_alg».proof.Proof.Gen.KernelIdeal
import proofs.«125217_j81741817577604_2_alg».proof.Proof.Gen.KernelIdeal.Skeleton
import proofs.«125217_j81741817577604_2_alg».proof.Proof.Gen.KernelIdeal.Launch
import proofs.«125217_j81741817577604_2_alg».proof.Proof.Gen.KernelIdeal.Points
import proofs.«125217_j81741817577604_2_alg».proof.Proof.Gen.KernelIdeal.Frame
import proofs.«125217_j81741817577604_2_alg».proof.Proof.Gen.ReferenceIdeal
import proofs.«125217_j81741817577604_2_alg».proof.Proof.Gen.ReferenceIdeal.Run
import proofs.«125217_j81741817577604_2_alg».proof.Proof.Gen.Pre_finite_inputs
import proofs.«125217_j81741817577604_2_alg».proof.Proof.PreFacts
import proofs.«125217_j81741817577604_2_alg».proof.Proof.KernelValue
import proofs.«125217_j81741817577604_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments: the generated frame. -/
theorem frame_k : @Cert.frame_Kernel Cert.Kernel.Gen.facts Cert.Pre_finite_inputs.Gen.facts :=
  fun m ρ _ => Cert.Kernel.Gen.frame m ρ

/-- The idealized kernel runs and keeps its arguments: the generated frame. -/
theorem frame_ki : @Cert.frame_KernelIdeal Cert.KernelIdeal.Gen.facts Cert.Pre_finite_inputs.Gen.facts :=
  fun m ρ _ => Cert.KernelIdeal.Gen.frame m ρ

/-- The reference runs and keeps its arguments: its generated run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Under the precondition both programs end at the mean loss of the same logits and the same target columns. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hp := fun c : Dev Cert.KernelIdeal.nD => Cert.PreFacts.of_pre _ _ (hpre c)
  refine ⟨_, Cert.KernelIdeal.KValue.run m ρ (fun c => (hp c).1) (fun c => (hp c).2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2]
  exact Cert.ReferenceIdeal.RefValue.ref_value _ _ (hp c).1 (hp c).2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
